-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_30000" .f32 0x380BCF65#32 ((1 / 30000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x30000 : Shape := ⟨3, ![32, 64, 30000]⟩
abbrev S64x1 : Shape := ⟨2, ![64, 1]⟩
abbrev S64 : Shape := ⟨1, ![64]⟩
abbrev S_ : Shape := ⟨0, ![]⟩

class Facts : Prop where
  bcast_S_S32x64x30000 : S_.BroadcastsInDim S32x64x30000 (![] : Fin 0 → Fin S32x64x30000.rank)
  reducesTo_S32x64x30000_S_d0_1_2 : S32x64x30000.ReducesTo [0, 1, 2] S_
  h_S_ : 0 < S_.numel
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_
  reducesTo_S_S_d : S_.ReducesTo [] S_

variable [Facts]

def fn_part2 {F : FTy → Type} [FloatOps F] (main_arg7 : FVec F S_ .f32) (main_v33 : IVec S_ 1) : IVec S_ 1 :=
  let main_v34 : FVec F S_ .f32 := Host.absf main_arg7
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  main_v37

def fn_part1 {F : FTy → Type} [FloatOps F] (main_arg4 : FVec F S64 .f32) (main_arg5 : FVec F S64x1 .f32) (main_arg6 : FVec F S64 .f32) (main_arg7 : FVec F S_ .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S32x64x30000 .f32) (main_arg1 : FVec F S64x1 .f32) (main_arg2 : FVec F S64 .f32) (main_arg3 : FVec F S64x1 .f32) (main_arg4 : FVec F S64 .f32) (main_arg5 : FVec F S64x1 .f32) (main_arg6 : FVec F S64 .f32) (main_arg7 : FVec F S_ .f32) : IVec S_ 1 :=
  let main_v0 : FVec F S32x64x30000 .f32 := Host.absf main_arg0
  let main_cst : FVec F S_ .f32 := constant S_ .f32 0x7F800000#32
  let main_v1 : FVec F S32x64x30000 .f32 := broadcastInDim S32x64x30000 ![] bcast_S_S32x64x30000 main_cst
  let main_v2 : IVec S32x64x30000 1 := cmpf .olt main_v0 main_v1
  let main_c : IVec S_ 1 := constantI S_ 1 1#1
  let main_v3 : IVec S_ 1 := (fun x v => Host.reduce IntOp.andi x v reducesTo_S32x64x30000_S_d0_1_2 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_arg7 main_v13 main_v16
-- ==== Kernel.lean ====
abbrev S32x64x30000 : Shape := ⟨3, ![32, 64, 30000]⟩
abbrev S64x1 : Shape := ⟨2, ![64, 1]⟩
abbrev S64 : Shape := ⟨1, ![64]⟩
abbrev S_ : Shape := ⟨0, ![]⟩
abbrev S1x64 : Shape := ⟨2, ![1, 64]⟩
abbrev S1x1 : Shape := ⟨2, ![1, 1]⟩
abbrev S1x64x30000 : Shape := ⟨3, ![1, 64, 30000]⟩
abbrev S1x64x2048 : Shape := ⟨3, ![1, 64, 2048]⟩
abbrev S64x2048 : Shape := ⟨2, ![64, 2048]⟩
abbrev S1x64x1328 : Shape := ⟨3, ![1, 64, 1328]⟩
abbrev S64x1328 : Shape := ⟨2, ![64, 1328]⟩
abbrev S64x64 : Shape := ⟨2, ![64, 64]⟩

abbrev nBuf : Space → Nat
  | .hbm => 16
  | .vmem => 9
  | .smem => 0
  | _ => 0

abbrev bufTy : (tb : Table) → Fin (tcTables nBuf tb) → BufTy
  | .hbm, ⟨0, _⟩ => ⟨S32x64x30000, .f32⟩
  | .hbm, ⟨1, _⟩ => ⟨S64x1, .f32⟩
  | .hbm, ⟨2, _⟩ => ⟨S64, .f32⟩
  | .hbm, ⟨3, _⟩ => ⟨S64x1, .f32⟩
  | .hbm, ⟨4, _⟩ => ⟨S64, .f32⟩
  | .hbm, ⟨5, _⟩ => ⟨S64x1, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S1x64, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S1x64, .f32⟩
  | .hbm, ⟨14, _⟩ => ⟨S1x1, .f32⟩
  | .hbm, ⟨15, _⟩ => ⟨S32x64x30000, .f32⟩
  | .local _ .vmem, ⟨0, _⟩ => ⟨S1x64x30000, .f32⟩
  | .local _ .vmem, ⟨1, _⟩ => ⟨S1x64x30000, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x1, .f32⟩
  | .local _ .vmem, ⟨7, _⟩ => ⟨S1x64x30000, .f32⟩
  | .local _ .vmem, ⟨8, _⟩ => ⟨S1x64x30000, .f32⟩
  | _, _ => ⟨S32x64x30000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x30000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x30000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x1_S64 : S64x1.ShapeCasts S64
  shapeCasts_S64_S1x64 : S64.ShapeCasts S1x64
  shapeCasts_S_S1x1 : S_.ShapeCasts S1x1
  inb_S1x64x30000_S1x64x2048_0_0_0 : ∀ a, (![0, 0, 0] : Fin 3 → Nat) a + S1x64x2048.size a ≤ S1x64x30000.size a
  h_S1x64x2048 : 0 < S1x64x2048.numel
  shapeCasts_S1x64x2048_S64x2048 : S1x64x2048.ShapeCasts S64x2048
  reduces_S64x2048_S64 : S64x2048.Reduces [1] S64
  shapeCasts_S64_S64x1 : S64.ShapeCasts S64x1
  inb_S1x64x30000_S1x64x2048_0_0_2048 : ∀ a, (![0, 0, 2048] : Fin 3 → Nat) a + S1x64x2048.size a ≤ S1x64x30000.size a
  inb_S1x64x30000_S1x64x2048_0_0_4096 : ∀ a, (![0, 0, 4096] : Fin 3 → Nat) a + S1x64x2048.size a ≤ S1x64x30000.size a
  inb_S1x64x30000_S1x64x2048_0_0_6144 : ∀ a, (![0, 0, 6144] : Fin 3 → Nat) a + S1x64x2048.size a ≤ S1x64x30000.size a
  inb_S1x64x30000_S1x64x2048_0_0_8192 : ∀ a, (![0, 0, 8192] : Fin 3 → Nat) a + S1x64x2048.size a ≤ S1x64x30000.size a
  inb_S1x64x30000_S1x64x2048_0_0_10240 : ∀ a, (![0, 0, 10240] : Fin 3 → Nat) a + S1x64x2048.size a ≤ S1x64x30000.size a
  inb_S1x64x30000_S1x64x2048_0_0_12288 : ∀ a, (![0, 0, 12288] : Fin 3 → Nat) a + S1x64x2048.size a ≤ S1x64x30000.size a
  inb_S1x64x30000_S1x64x2048_0_0_14336 : ∀ a, (![0, 0, 14336] : Fin 3 → Nat) a + S1x64x2048.size a ≤ S1x64x30000.size a
  inb_S1x64x30000_S1x64x2048_0_0_16384 : ∀ a, (![0, 0, 16384] : Fin 3 → Nat) a + S1x64x2048.size a ≤ S1x64x30000.size a
  inb_S1x64x30000_S1x64x2048_0_0_18432 : ∀ a, (![0, 0, 18432] : Fin 3 → Nat) a + S1x64x2048.size a ≤ S1x64x30000.size a
  inb_S1x64x30000_S1x64x2048_0_0_20480 : ∀ a, (![0, 0, 20480] : Fin 3 → Nat) a + S1x64x2048.size a ≤ S1x64x30000.size a
  inb_S1x64x30000_S1x64x2048_0_0_22528 : ∀ a, (![0, 0, 22528] : Fin 3 → Nat) a + S1x64x2048.size a ≤ S1x64x30000.size a
  inb_S1x64x30000_S1x64x2048_0_0_24576 : ∀ a, (![0, 0, 24576] : Fin 3 → Nat) a + S1x64x2048.size a ≤ S1x64x30000.size a
  inb_S1x64x30000_S1x64x2048_0_0_26624 : ∀ a, (![0, 0, 26624] : Fin 3 → Nat) a + S1x64x2048.size a ≤ S1x64x30000.size a
  inb_S1x64x30000_S1x64x1328_0_0_28672 : ∀ a, (![0, 0, 28672] : Fin 3 → Nat) a + S1x64x1328.size a ≤ S1x64x30000.size a
  h_S1x64x1328 : 0 < S1x64x1328.numel
  shapeCasts_S1x64x1328_S64x1328 : S1x64x1328.ShapeCasts S64x1328
  reduces_S64x1328_S64 : S64x1328.Reduces [1] S64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S64x1_S64x64 : S64x1.Broadcasts S64x64
  broadcasts_S1x64_S64x64 : S1x64.Broadcasts S64x64
  transposes_S64x64_p1_0_S64x64 : S64x64.Transposes [1, 0] S64x64
  reduces_S64x64_S64 : S64x64.Reduces [1] S64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x2048 : S1x1.Broadcasts S64x2048
  shapeCasts_S64x2048_S1x64x2048 : S64x2048.ShapeCasts S1x64x2048
  broadcasts_S1x1_S64x1328 : S1x1.Broadcasts S64x1328
  shapeCasts_S64x1328_S1x64x1328 : S64x1328.ShapeCasts S1x64x1328
  dot_S64x64_S64x64_S64x64_1_0_0_1_n_n_wf : DotDims.WF S64x64 S64x64 S64x64 [1] [0] [0] [1] [] []
  dot_S64x64_S64x2048_S64x2048_1_0_0_1_n_n_wf : DotDims.WF S64x64 S64x2048 S64x2048 [1] [0] [0] [1] [] []
  dot_S64x64_S64x1328_S64x1328_1_0_0_1_n_n_wf : DotDims.WF S64x64 S64x1328 S64x1328 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x30000.size a ≤ S32x64x30000.size a
  hwx0_0 : ∀ i : grid0.Coords, EltTy.bits .f32 = 32 ∨ (Rect.block (s := S32x64x30000) S1x64x30000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x30000.size a ≤ S32x64x30000.size a
  hwx0_6 : ∀ i : grid0.Coords, EltTy.bits .f32 = 32 ∨ (Rect.block (s := S32x64x30000) S1x64x30000.size (cc0_transform_6 i) (hinb0_6 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x2048_S64x2048_1_0_0_1_n_n : DotDims S64x64 S64x2048 S64x2048 where
  lhsContracting := [1]
  rhsContracting := [0]
  lhsNonContracting := [0]
  rhsNonContracting := [1]
  lhsBatch := []
  rhsBatch := []
  wf := dot_S64x64_S64x2048_S64x2048_1_0_0_1_n_n_wf
def dot_S64x64_S64x1328_S64x1328_1_0_0_1_n_n : DotDims S64x64 S64x1328 S64x1328 where
  lhsContracting := [1]
  rhsContracting := [0]
  lhsNonContracting := [0]
  rhsNonContracting := [1]
  lhsBatch := []
  rhsBatch := []
  wf := dot_S64x64_S64x1328_S64x1328_1_0_0_1_n_n_wf

abbrev win0_0 : Pipeline.Window sig grid0 :=
  Pipeline.Window.ofSpec (Memref.whole main_arg0) S1x64x30000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x64x30000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x64x30000 : Shape := ⟨3, ![32, 64, 30000]⟩
abbrev S64x1 : Shape := ⟨2, ![64, 1]⟩
abbrev S64 : Shape := ⟨1, ![64]⟩
abbrev S_ : Shape := ⟨0, ![]⟩
abbrev S32x64 : Shape := ⟨2, ![32, 64]⟩
abbrev S32x64x1 : Shape := ⟨3, ![32, 64, 1]⟩
abbrev S1x1x64 : Shape := ⟨3, ![1, 1, 64]⟩
abbrev S32x64x64 : Shape := ⟨3, ![32, 64, 64]⟩

abbrev nBuf : Space → Nat
  | .hbm => 54
  | .vmem => 0
  | .smem => 0
  | _ => 0

abbrev bufTy : (tb : Table) → Fin (tcTables nBuf tb) → BufTy
  | .hbm, ⟨0, _⟩ => ⟨S32x64x30000, .f32⟩
  | .hbm, ⟨1, _⟩ => ⟨S64x1, .f32⟩
  | .hbm, ⟨2, _⟩ => ⟨S64, .f32⟩
  | .hbm, ⟨3, _⟩ => ⟨S64x1, .f32⟩
  | .hbm, ⟨4, _⟩ => ⟨S64, .f32⟩
  | .hbm, ⟨5, _⟩ => ⟨S64x1, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x64, .f32⟩
  | .hbm, ⟨13, _⟩ => ⟨S32x64x1, .f32⟩
  | .hbm, ⟨14, _⟩ => ⟨S_, .f32⟩
  | .hbm, ⟨15, _⟩ => ⟨S32x64x1, .f32⟩
  | .hbm, ⟨16, _⟩ => ⟨S32x64x1, .f32⟩
  | .hbm, ⟨17, _⟩ => ⟨S64, .f32⟩
  | .hbm, ⟨18, _⟩ => ⟨S1x1x64, .f32⟩
  | .hbm, ⟨19, _⟩ => ⟨S32x64x64, .f32⟩
  | .hbm, ⟨20, _⟩ => ⟨S32x64x64, .f32⟩
  | .hbm, ⟨21, _⟩ => ⟨S32x64x64, .f32⟩
  | .hbm, ⟨22, _⟩ => ⟨S1x1x64, .f32⟩
  | .hbm, ⟨23, _⟩ => ⟨S32x64x64, .f32⟩
  | .hbm, ⟨24, _⟩ => ⟨S32x64x64, .f32⟩
  | .hbm, ⟨25, _⟩ => ⟨S64, .f32⟩
  | .hbm, ⟨26, _⟩ => ⟨S1x1x64, .f32⟩
  | .hbm, ⟨27, _⟩ => ⟨S32x64x64, .f32⟩
  | .hbm, ⟨28, _⟩ => ⟨S32x64x64, .f32⟩
  | .hbm, ⟨29, _⟩ => ⟨S32x64x64, .f32⟩
  | .hbm, ⟨30, _⟩ => ⟨S1x1x64, .f32⟩
  | .hbm, ⟨31, _⟩ => ⟨S32x64x64, .f32⟩
  | .hbm, ⟨32, _⟩ => ⟨S32x64x64, .f32⟩
  | .hbm, ⟨33, _⟩ => ⟨S32x64x64, .f32⟩
  | .hbm, ⟨34, _⟩ => ⟨S32x64x64, .f32⟩
  | .hbm, ⟨35, _⟩ => ⟨S32x64x64, .f32⟩
  | .hbm, ⟨36, _⟩ => ⟨S_, .f32⟩
  | .hbm, ⟨37, _⟩ => ⟨S32x64, .f32⟩
  | .hbm, ⟨38, _⟩ => ⟨S_, .f32⟩
  | .hbm, ⟨39, _⟩ => ⟨S32x64, .f32⟩
  | .hbm, ⟨40, _⟩ => ⟨S32x64, .f32⟩
  | .hbm, ⟨41, _⟩ => ⟨S32x64x1, .f32⟩
  | .hbm, ⟨42, _⟩ => ⟨S32x64x64, .f32⟩
  | .hbm, ⟨43, _⟩ => ⟨S32x64x64, .f32⟩
  | .hbm, ⟨44, _⟩ => ⟨S32x64x64, .f32⟩
  | .hbm, ⟨45, _⟩ => ⟨S_, .f32⟩
  | .hbm, ⟨46, _⟩ => ⟨S32x64, .f32⟩
  | .hbm, ⟨47, _⟩ => ⟨S32x64x1, .f32⟩
  | .hbm, ⟨48, _⟩ => ⟨S32x64x64, .f32⟩
  | .hbm, ⟨49, _⟩ => ⟨S32x64x64, .f32⟩
  | .hbm, ⟨50, _⟩ => ⟨S32x64x30000, .f32⟩
  | .hbm, ⟨51, _⟩ => ⟨S32x64x30000, .f32⟩
  | .hbm, ⟨52, _⟩ => ⟨S32x64x30000, .f32⟩
  | .hbm, ⟨53, _⟩ => ⟨S32x64x30000, .f32⟩
  | _, _ => ⟨S32x64x30000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  reducesTo_S32x64x30000_S32x64_d2 : S32x64x30000.ReducesTo [2] S32x64
  h_S_ : 0 < S_.numel
  bcast_S32x64_S32x64x1_0_1 : S32x64.BroadcastsInDim S32x64x1 (![0, 1] : Fin 2 → Fin S32x64x1.rank)
  bcast_S_S32x64x1 : S_.BroadcastsInDim S32x64x1 (![] : Fin 0 → Fin S32x64x1.rank)
  shapeCasts_S64x1_S64 : S64x1.ShapeCasts S64
  bcast_S64_S1x1x64_2 : S64.BroadcastsInDim S1x1x64 (![2] : Fin 1 → Fin S1x1x64.rank)
  bcast_S32x64x1_S32x64x64_0_1_2 : S32x64x1.BroadcastsInDim S32x64x64 (![0, 1, 2] : Fin 3 → Fin S32x64x64.rank)
  bcast_S1x1x64_S32x64x64_0_1_2 : S1x1x64.BroadcastsInDim S32x64x64 (![0, 1, 2] : Fin 3 → Fin S32x64x64.rank)
  bcast_S_S32x64x64 : S_.BroadcastsInDim S32x64x64 (![] : Fin 0 → Fin S32x64x64.rank)
  reducesTo_S32x64x64_S32x64_d2 : S32x64x64.ReducesTo [2] S32x64
  bcast_S_S32x64 : S_.BroadcastsInDim S32x64 (![] : Fin 0 → Fin S32x64.rank)
  bcast_S_S32x64x30000 : S_.BroadcastsInDim S32x64x30000 (![] : Fin 0 → Fin S32x64x30000.rank)
  dot_S32x64x64_S32x64x64_S32x64x64_2_2_1_1_0_0_wf : DotDims.WF S32x64x64 S32x64x64 S32x64x64 [2] [2] [1] [1] [0] [0]
  dot_S32x64x64_S32x64x30000_S32x64x30000_2_1_1_2_0_0_wf : DotDims.WF S32x64x64 S32x64x30000 S32x64x30000 [2] [1] [1] [2] [0] [0]

variable [Facts₀]

def dot_S32x64x64_S32x64x64_S32x64x64_2_2_1_1_0_0 : DotDims S32x64x64 S32x64x64 S32x64x64 where
  lhsContracting := [2]
  rhsContracting := [2]
  lhsNonContracting := [1]
  rhsNonContracting := [1]
  lhsBatch := [0]
  rhsBatch := [0]
  wf := dot_S32x64x64_S32x64x64_S32x64x64_2_2_1_1_0_0_wf
def dot_S32x64x64_S32x64x30000_S32x64x30000_2_1_1_2_0_0 : DotDims S32x64x64 S32x64x30000 S32x64x30000 where
  lhsContracting := [2]
  rhsContracting := [1]
  lhsNonContracting := [1]
  rhsNonContracting := [2]
  lhsBatch := [0]
  rhsBatch := [0]
  wf := dot_S32x64x64_S32x64x30000_S32x64x30000_2_1_1_2_0_0_wf

class Facts : Prop extends Facts₀ where

variable [Facts]
-- ==== Proof.CoverBits.lean ====
/-
  The fifteen stretches the kernel's body stores cover its whole output block.

  The stores write the time steps `[0, 2048)`, `[2048, 4096)`, …, `[26624, 28672)` and `[28672, 30000)` of every channel:
  an index of the `[1, 64, 30000]` block lies in the stretch that holds its time coordinate.
-/
import proofs.«154775_j89154931131039_2_alg».proof.Proof.Gen.Kernel.Frame.RunA

noncomputable section

namespace Cert.Kernel.Cover

open Idealize.ShloMosaic Idealize.ShloMosaic.TcCoe Idealize.SL.Sem
open Cert.Kernel Cert.Kernel.Gen

variable {F : FTy → Type} [FloatOps F]

/-- An index whose time coordinate is in `[off, off + w)` is in the stretch of `w` steps from `off`. -/
theorem mem_stretch (off w : ℕ) (inb) (y : S1x64x30000.Idx) (h : off ≤ (y 2).val ∧ (y 2).val < off + w) :
    y ∈ (Rect.unit (s := S1x64x30000) ![0, 0, off] ![1, 64, w] inb).set := by
  rw [Rect.mem_set_unit]
  intro a
  match a with
  | ⟨0, _⟩ =>
    show 0 ≤ (y 0).val ∧ (y 0).val < 0 + 1
    have h0 : (y 0).val < 1 := (y 0).isLt
    omega
  | ⟨1, _⟩ =>
    show 0 ≤ (y 1).val ∧ (y 1).val < 0 + 64
    have h1 : (y 1).val < 64 := (y 1).isLt
    omega
  | ⟨2, _⟩ => exact h

/-- Every index of the output block is in one of the stored stretches. -/
theorem cover (c : Dev nD) (i : grid0.Coords) (arg1 : Memref sig .tc .vmem S1x64x30000 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1x64x30000 .f32) (harg7 : arg7.IsWhole)
    (x0 : Vec F S1x64x30000 .f32) (x1 : Vec F S1x64 .f32) (x2 : Vec F S1x64 .f32) (x3 : Vec F S1x64 .f32) (x4 : Vec F S1x64 .f32) (x5 : Vec F S1x1 .f32) (y : S1x64x30000.Idx) :
    ∃ pc ∈ (kernelRun0_A c i arg1 harg1 arg2 harg2 arg3 harg3 arg4 harg4 arg5 harg5 arg6 harg6 arg7 harg7 x0 x1 x2 x3 x4 x5).1, y ∈ pc.1.set := by
  unfold kernelRun0_A
  dsimp only
  have h2 : (y 2).val < 30000 := (y 2).isLt
  by_cases c0 : 28672 ≤ (y 2).val
  · exact ⟨_, List.mem_cons_self, mem_stretch 28672 1328 inb_S1x64x30000_S1x64x1328_0_0_28672 y ⟨c0, by omega⟩⟩
  by_cases c1 : 26624 ≤ (y 2).val
  · exact ⟨_, List.mem_cons_of_mem _ (List.mem_cons_self), mem_stretch 26624 2048 inb_S1x64x30000_S1x64x2048_0_0_26624 y ⟨c1, by omega⟩⟩
  by_cases c2 : 24576 ≤ (y 2).val
  · exact ⟨_, List.mem_cons_of_mem _ (List.mem_cons_of_mem _ (List.mem_cons_self)), mem_stretch 24576 2048 inb_S1x64x30000_S1x64x2048_0_0_24576 y ⟨c2, by omega⟩⟩
  by_cases c3 : 22528 ≤ (y 2).val
  · exact ⟨_, List.mem_cons_of_mem _ (List.mem_cons_of_mem _ (List.mem_cons_of_mem _ (List.mem_cons_self))), mem_stretch 22528 2048 inb_S1x64x30000_S1x64x2048_0_0_22528 y ⟨c3, by omega⟩⟩
  by_cases c4 : 20480 ≤ (y 2).val
  · exact ⟨_, List.mem_cons_of_mem _ (List.mem_cons_of_mem _ (List.mem_cons_of_mem _ (List.mem_cons_of_mem _ (List.mem_cons_self)))), mem_stretch 20480 2048 inb_S1x64x30000_S1x64x2048_0_0_20480 y ⟨c4, by omega⟩⟩
  by_cases c5 : 18432 ≤ (y 2).val
  · exact ⟨_, List.mem_cons_of_mem _ (List.mem_cons_of_mem _ (List.mem_cons_of_mem _ (List.mem_cons_of_mem _ (List.mem_cons_of_mem _ (List.mem_cons_self))))), mem_stretch 18432 2048 inb_S1x64x30000_S1x64x2048_0_0_18432 y ⟨c5, by omega⟩⟩
  by_cases c6 : 16384 ≤ (y 2).val
  · exact ⟨_, List.mem_cons_of_mem _ (List.mem_cons_of_mem _ (List.mem_cons_of_mem _ (List.mem_cons_of_mem _ (List.mem_cons_of_mem _ (List.mem_cons_of_mem _ (List.mem_cons_self)))))), mem_stretch 16384 2048 inb_S1x64x30000_S1x64x2048_0_0_16384 y ⟨c6, by omega⟩⟩
  by_cases c7 : 14336 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_stretch 14336 2048 inb_S1x64x30000_S1x64x2048_0_0_14336 y ⟨c7, by omega⟩⟩
  by_cases c8 : 12288 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_stretch 12288 2048 inb_S1x64x30000_S1x64x2048_0_0_12288 y ⟨c8, by omega⟩⟩
  by_cases c9 : 10240 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_stretch 10240 2048 inb_S1x64x30000_S1x64x2048_0_0_10240 y ⟨c9, by omega⟩⟩
  by_cases c10 : 8192 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_stretch 8192 2048 inb_S1x64x30000_S1x64x2048_0_0_8192 y ⟨c10, by omega⟩⟩
  by_cases c11 : 6144 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_stretch 6144 2048 inb_S1x64x30000_S1x64x2048_0_0_6144 y ⟨c11, by omega⟩⟩
  by_cases c12 : 4096 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_stretch 4096 2048 inb_S1x64x30000_S1x64x2048_0_0_4096 y ⟨c12, by omega⟩⟩
  by_cases c13 : 2048 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_stretch 2048 2048 inb_S1x64x30000_S1x64x2048_0_0_2048 y ⟨c13, by omega⟩⟩
  exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_stretch 0 2048 inb_S1x64x30000_S1x64x2048_0_0_0 y ⟨Nat.zero_le _, by omega⟩⟩

end Cert.Kernel.Cover

end
-- ==== Proof.CoverIdeal.lean ====
/-
  The fifteen stretches the idealized kernel's body stores cover its whole output block.

  The stores write the time steps `[0, 2048)`, `[2048, 4096)`, …, `[26624, 28672)` and `[28672, 30000)` of every channel:
  an index of the `[1, 64, 30000]` block lies in the stretch that holds its time coordinate.
-/
import proofs.«154775_j89154931131039_2_alg».proof.Proof.Gen.KernelIdeal.Frame.RunA

noncomputable section

namespace Cert.KernelIdeal.Cover

open Idealize.ShloMosaic Idealize.ShloMosaic.TcCoe Idealize.SL.Sem
open Cert.KernelIdeal Cert.KernelIdeal.Gen

variable {F : FTy → Type} [FloatOps F] [Named F]

/-- An index whose time coordinate is in `[off, off + w)` is in the stretch of `w` steps from `off`. -/
theorem mem_stretch (off w : ℕ) (inb) (y : S1x64x30000.Idx) (h : off ≤ (y 2).val ∧ (y 2).val < off + w) :
    y ∈ (Rect.unit (s := S1x64x30000) ![0, 0, off] ![1, 64, w] inb).set := by
  rw [Rect.mem_set_unit]
  intro a
  match a with
  | ⟨0, _⟩ =>
    show 0 ≤ (y 0).val ∧ (y 0).val < 0 + 1
    have h0 : (y 0).val < 1 := (y 0).isLt
    omega
  | ⟨1, _⟩ =>
    show 0 ≤ (y 1).val ∧ (y 1).val < 0 + 64
    have h1 : (y 1).val < 64 := (y 1).isLt
    omega
  | ⟨2, _⟩ => exact h

/-- Every index of the output block is in one of the stored stretches. -/
theorem cover (c : Dev nD) (i : grid0.Coords) (arg1 : Memref sig .tc .vmem S1x64x30000 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1x64x30000 .f32) (harg7 : arg7.IsWhole)
    (x0 : Vec F S1x64x30000 .f32) (x1 : Vec F S1x64 .f32) (x2 : Vec F S1x64 .f32) (x3 : Vec F S1x64 .f32) (x4 : Vec F S1x64 .f32) (x5 : Vec F S1x1 .f32) (y : S1x64x30000.Idx) :
    ∃ pc ∈ (kernelRun0_A c i arg1 harg1 arg2 harg2 arg3 harg3 arg4 harg4 arg5 harg5 arg6 harg6 arg7 harg7 x0 x1 x2 x3 x4 x5).1, y ∈ pc.1.set := by
  unfold kernelRun0_A
  dsimp only
  have h2 : (y 2).val < 30000 := (y 2).isLt
  by_cases c0 : 28672 ≤ (y 2).val
  · exact ⟨_, List.mem_cons_self, mem_stretch 28672 1328 inb_S1x64x30000_S1x64x1328_0_0_28672 y ⟨c0, by omega⟩⟩
  by_cases c1 : 26624 ≤ (y 2).val
  · exact ⟨_, List.mem_cons_of_mem _ (List.mem_cons_self), mem_stretch 26624 2048 inb_S1x64x30000_S1x64x2048_0_0_26624 y ⟨c1, by omega⟩⟩
  by_cases c2 : 24576 ≤ (y 2).val
  · exact ⟨_, List.mem_cons_of_mem _ (List.mem_cons_of_mem _ (List.mem_cons_self)), mem_stretch 24576 2048 inb_S1x64x30000_S1x64x2048_0_0_24576 y ⟨c2, by omega⟩⟩
  by_cases c3 : 22528 ≤ (y 2).val
  · exact ⟨_, List.mem_cons_of_mem _ (List.mem_cons_of_mem _ (List.mem_cons_of_mem _ (List.mem_cons_self))), mem_stretch 22528 2048 inb_S1x64x30000_S1x64x2048_0_0_22528 y ⟨c3, by omega⟩⟩
  by_cases c4 : 20480 ≤ (y 2).val
  · exact ⟨_, List.mem_cons_of_mem _ (List.mem_cons_of_mem _ (List.mem_cons_of_mem _ (List.mem_cons_of_mem _ (List.mem_cons_self)))), mem_stretch 20480 2048 inb_S1x64x30000_S1x64x2048_0_0_20480 y ⟨c4, by omega⟩⟩
  by_cases c5 : 18432 ≤ (y 2).val
  · exact ⟨_, List.mem_cons_of_mem _ (List.mem_cons_of_mem _ (List.mem_cons_of_mem _ (List.mem_cons_of_mem _ (List.mem_cons_of_mem _ (List.mem_cons_self))))), mem_stretch 18432 2048 inb_S1x64x30000_S1x64x2048_0_0_18432 y ⟨c5, by omega⟩⟩
  by_cases c6 : 16384 ≤ (y 2).val
  · exact ⟨_, List.mem_cons_of_mem _ (List.mem_cons_of_mem _ (List.mem_cons_of_mem _ (List.mem_cons_of_mem _ (List.mem_cons_of_mem _ (List.mem_cons_of_mem _ (List.mem_cons_self)))))), mem_stretch 16384 2048 inb_S1x64x30000_S1x64x2048_0_0_16384 y ⟨c6, by omega⟩⟩
  by_cases c7 : 14336 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_stretch 14336 2048 inb_S1x64x30000_S1x64x2048_0_0_14336 y ⟨c7, by omega⟩⟩
  by_cases c8 : 12288 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_stretch 12288 2048 inb_S1x64x30000_S1x64x2048_0_0_12288 y ⟨c8, by omega⟩⟩
  by_cases c9 : 10240 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_stretch 10240 2048 inb_S1x64x30000_S1x64x2048_0_0_10240 y ⟨c9, by omega⟩⟩
  by_cases c10 : 8192 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_stretch 8192 2048 inb_S1x64x30000_S1x64x2048_0_0_8192 y ⟨c10, by omega⟩⟩
  by_cases c11 : 6144 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_stretch 6144 2048 inb_S1x64x30000_S1x64x2048_0_0_6144 y ⟨c11, by omega⟩⟩
  by_cases c12 : 4096 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_stretch 4096 2048 inb_S1x64x30000_S1x64x2048_0_0_4096 y ⟨c12, by omega⟩⟩
  by_cases c13 : 2048 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_stretch 2048 2048 inb_S1x64x30000_S1x64x2048_0_0_2048 y ⟨c13, by omega⟩⟩
  exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_stretch 0 2048 inb_S1x64x30000_S1x64x2048_0_0_0 y ⟨Nat.zero_le _, by omega⟩⟩

end Cert.KernelIdeal.Cover

end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.Spec.lean ====
/-
  The function both programs compute, over the extended reals, for one batch entry.

  `X c t` is the signal of channel `c` (64 channels, 30000 time steps). Each channel is summarised by its mean over
  time, `mean (X c)`. From the mean `d` of a channel two 64-vectors are made, `d * wq j + bq j` and `d * wk j + bk j`;
  the logit of the channel pair `(c, e)` is the inner product of the first vector of `c` with the second vector of
  `e`, times 1/8. A row of logits is turned into softmax weights (the row's maximum is subtracted before the
  exponential, the exponentials are divided by their sum), and the output is the signal plus `α` times the weighted
  mix of all channels: `X c t + α * ∑ e, weight c e * X e t`.

  The second half is the one law the two programs differ by: a row's sum over 30000 time steps is the sum of fourteen
  consecutive stretches of 2048 steps and a last stretch of 1328, added one after the other starting from zero. This is
  a regrouping of a finite sum in an additive commutative monoid, so it holds for infinite entries as well.
-/
import Idealize.ShloMosaic.PureOps.Ideal

noncomputable section

open scoped BigOperators

namespace Cert.Spec

open Idealize.ShloMosaic

/-! ## The formula -/

/-- The maximum of a row of 64 logits, taken from `-inf` (and once more against `-inf`, as both programs spell it). -/
def rowMax (l : Fin 64 → EReal) : EReal :=
  max (Ideal.ofBits .f32 0xFF800000#32) ((Finset.univ : Finset (Fin 64)).fold max (Ideal.ofBits .f32 0xFF800000#32) l)

/-- The softmax weight of entry `e` of a row of logits. -/
def weight (l : Fin 64 → EReal) (e : Fin 64) : EReal :=
  Ideal.div (Ideal.exp (l e - rowMax l)) (∑ e' : Fin 64, Ideal.exp (l e' - rowMax l))

/-- Coordinate `j` of the vector made from a channel's mean `d`. -/
def proj (d : EReal) (w b : Fin 64 → EReal) (j : Fin 64) : EReal := d * w j + b j

/-- The logit of two channels with means `dq` and `dk`: the inner product of their two vectors, times 1/8. -/
def logit (wq bq wk bk : Fin 64 → EReal) (dq dk : EReal) : EReal :=
  (∑ j : Fin 64, proj dq wq bq j * proj dk wk bk j) * Ideal.ofBits .f32 0x3E000000#32

/-- A channel's mean over the 30000 time steps. -/
def mean (r : Fin 30000 → EReal) : EReal := (∑ t : Fin 30000, r t) * ((1 / 30000 : ℝ) : EReal)

/-- The row of logits of channel `c` against every channel. -/
def logits (X : Fin 64 → Fin 30000 → EReal) (wq bq wk bk : Fin 64 → EReal) (c : Fin 64) : Fin 64 → EReal :=
  fun e => logit wq bq wk bk (mean (X c)) (mean (X e))

/-- The result at channel `c` and time `t`. -/
def out (X : Fin 64 → Fin 30000 → EReal) (wq bq wk bk : Fin 64 → EReal) (α : EReal) (c : Fin 64) (t : Fin 30000) : EReal :=
  X c t + α * ∑ e : Fin 64, weight (logits X wq bq wk bk c) e * X e t

/-! ## A row's sum, stretch by stretch -/

/-- The sum of the `w` entries of a row that start at position `off`. -/
def csum (r : Fin 30000 → EReal) (off w : ℕ) (h : off + w ≤ 30000) : EReal :=
  ∑ k : Fin w, r ⟨off + k.val, by have := k.isLt; omega⟩

/-- A row continued by zero past its end, so that its sums can be taken over ranges of naturals. -/
def ext (r : Fin 30000 → EReal) (t : ℕ) : EReal := if h : t < 30000 then r ⟨t, h⟩ else 0

theorem csum_eq_range (r : Fin 30000 → EReal) (off w : ℕ) (h : off + w ≤ 30000) :
    csum r off w h = ∑ k ∈ Finset.range w, ext r (off + k) := by
  rw [← Fin.sum_univ_eq_sum_range (fun k => ext r (off + k)) w]
  refine Finset.sum_congr rfl fun k _ => ?_
  have hk : off + k.val < 30000 := by have := k.isLt; omega
  simp only [ext, dif_pos hk]

theorem sum_eq_range (r : Fin 30000 → EReal) : ∑ t : Fin 30000, r t = ∑ t ∈ Finset.range 30000, ext r t := by
  rw [← Fin.sum_univ_eq_sum_range (fun t => ext r t) 30000]
  refine Finset.sum_congr rfl fun t _ => ?_
  simp only [ext, dif_pos t.isLt]

/-- The fifteen stretches added one after the other from zero, as the kernel adds them. -/
def chunked (r : Fin 30000 → EReal) : EReal :=
  0 + csum r 0 2048 (by omega) + csum r 2048 2048 (by omega) + csum r 4096 2048 (by omega) + csum r 6144 2048 (by omega)
    + csum r 8192 2048 (by omega) + csum r 10240 2048 (by omega) + csum r 12288 2048 (by omega)
    + csum r 14336 2048 (by omega) + csum r 16384 2048 (by omega) + csum r 18432 2048 (by omega)
    + csum r 20480 2048 (by omega) + csum r 22528 2048 (by omega) + csum r 24576 2048 (by omega)
    + csum r 26624 2048 (by omega) + csum r 28672 1328 (by omega)

/-- The stretches together are the whole row. -/
theorem chunked_eq (r : Fin 30000 → EReal) : chunked r = ∑ t : Fin 30000, r t := by
  have e1 := Finset.sum_range_add (ext r) 28672 1328
  have e2 := Finset.sum_range_add (ext r) 26624 2048
  have e3 := Finset.sum_range_add (ext r) 24576 2048
  have e4 := Finset.sum_range_add (ext r) 22528 2048
  have e5 := Finset.sum_range_add (ext r) 20480 2048
  have e6 := Finset.sum_range_add (ext r) 18432 2048
  have e7 := Finset.sum_range_add (ext r) 16384 2048
  have e8 := Finset.sum_range_add (ext r) 14336 2048
  have e9 := Finset.sum_range_add (ext r) 12288 2048
  have e10 := Finset.sum_range_add (ext r) 10240 2048
  have e11 := Finset.sum_range_add (ext r) 8192 2048
  have e12 := Finset.sum_range_add (ext r) 6144 2048
  have e13 := Finset.sum_range_add (ext r) 4096 2048
  have e14 := Finset.sum_range_add (ext r) 2048 2048
  have e15 := Finset.sum_range_add (ext r) 0 2048
  simp only [Nat.reduceAdd] at e1 e2 e3 e4 e5 e6 e7 e8 e9 e10 e11 e12 e13 e14 e15
  rw [Finset.sum_range_zero] at e15
  unfold chunked
  simp only [csum_eq_range]
  rw [sum_eq_range, e1, e2, e3, e4, e5, e6, e7, e8, e9, e10, e11, e12, e13, e14, e15]

end Cert.Spec

end
-- ==== Proof.Consts.lean ====
/-
  The float constants the two programs spell, as the extended reals their words denote when a float is read as an
  exact extended real: the reference's 64, 1/2 and 30000, the kernel's 1/8, and the zero both start their sums from.
  The reference divides the logits by 64 ^ (1/2), which is 8; the kernel multiplies them by the word of 1/8.
-/
import Idealize.ShloMosaic.PureOps.Ideal

noncomputable section

namespace Cert.Consts

open Idealize.ShloMosaic

/-- The word of `64.0` denotes the real 64. -/
theorem ofBits_64 : Ideal.ofBits .f32 0x42800000#32 = ((64 : ℝ) : EReal) := by
  simp [Ideal.ofBits, Ideal.ieee, -EReal.coe_mul]; norm_num

/-- The word of `0.5` denotes the real 1/2. -/
theorem ofBits_half : Ideal.ofBits .f32 0x3F000000#32 = ((1 / 2 : ℝ) : EReal) := by
  simp [Ideal.ofBits, Ideal.ieee, -EReal.coe_mul]; norm_num

/-- The word of `0.125` denotes the real 1/8. -/
theorem ofBits_eighth : Ideal.ofBits .f32 0x3E000000#32 = ((1 / 8 : ℝ) : EReal) := by
  simp [Ideal.ofBits, Ideal.ieee, -EReal.coe_mul]; norm_num

/-- The word of `30000.0` denotes the real 30000. -/
theorem ofBits_30000 : Ideal.ofBits .f32 0x46EA6000#32 = ((30000 : ℝ) : EReal) := by
  simp [Ideal.ofBits, Ideal.ieee, -EReal.coe_mul]; norm_num

/-- The square root of 64, spelt as the power 64 ^ (1/2), is 8. -/
theorem rpow_64_half : Real.rpow 64 (1 / 2) = 8 := by
  rw [show (64 : ℝ) = 8 ^ (2 : ℝ) by norm_num, Real.rpow_eq_pow, ← Real.rpow_mul (by norm_num)]; norm_num

/-- The reference's scale: the power of the two words is the real 8. -/
theorem pow_64_half :
    Ideal.pow (Ideal.ofBits .f32 0x42800000#32) (Ideal.ofBits .f32 0x3F000000#32) = ((8 : ℝ) : EReal) := by
  rw [ofBits_64, ofBits_half, Ideal.pow_coe_coe, rpow_64_half]

/-- Dividing by the reference's scale is multiplying by 1/8, on every extended real. -/
theorem div_scale (x : EReal) :
    Ideal.div x (Ideal.pow (Ideal.ofBits .f32 0x42800000#32) (Ideal.ofBits .f32 0x3F000000#32))
      = x * Ideal.ofBits .f32 0x3E000000#32 := by
  rw [pow_64_half, ofBits_eighth, Ideal.div_coe (by norm_num : (8 : ℝ) ≠ 0)]

/-- Dividing by 30000 is multiplying by 1/30000, on every extended real. -/
theorem div_30000 (x : EReal) :
    Ideal.div x (Ideal.ofBits .f32 0x46EA6000#32) = x * ((1 / 30000 : ℝ) : EReal) := by
  rw [ofBits_30000, Ideal.div_coe (by norm_num : (30000 : ℝ) ≠ 0)]

end Cert.Consts

end
-- ==== Proof.KernelOps.lean ====
/-
  The kernel body's arithmetic, read at an index, over the extended reals.

  The body works on one batch entry: a block `[1, 64, 30000]` of the signal, four rows `[1, 64]` (the two weight
  vectors and the two biases) and the scalar `α` as a `[1, 1]` block. It sums every channel over time in fifteen
  stretches, turns the sums into means, forms the logits of every pair of channels and their softmax weights, and then,
  stretch by stretch again, stores the signal plus `α` times the weighted mix of the channels.
  Each lemma reads one of the body's named values at an index, for arbitrary operands.
-/
import proofs.«154775_j89154931131039_2_alg».proof.Proof.Gen.KernelIdeal.Skeleton
import proofs.«154775_j89154931131039_2_alg».proof.Proof.LibRowReduce
import proofs.«154775_j89154931131039_2_alg».proof.Proof.LibPlainMatmul
import proofs.«154775_j89154931131039_2_alg».proof.Proof.Spec
import proofs.«154775_j89154931131039_2_alg».proof.Proof.Consts
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelValue

open Idealize.ShloMosaic Idealize.ShloMosaic.ValueIdx Cert.KernelIdeal Cert.KernelIdeal.Gen

/-! ## Layout -/

/-- A `[1, 1]` block broadcast over an `[a, b]` matrix reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) :=
  broadcastTo_apply v h (ix2 p q) (ix2 (0 : Fin 1) (0 : Fin 1)) fun ax => by
    match ax with
    | ⟨0, _⟩ => rfl
    | ⟨1, _⟩ => rfl

/-- The sum over time of channel `i` of a `[1, 64, w]` stretch. -/
def rowSum {w : ℕ} (v : (⟨3, ![1, 64, w]⟩ : Shape).Idx → EReal) (i : Fin 64) : EReal :=
  ∑ k : Fin w, v (ix3 (0 : Fin 1) i k)

/-- A stretch of 2048 steps summed along time and kept as a column. -/
theorem colSum2048_apply (v : Vec Ideal S1x64x2048 .f32) (i : Fin 64) :
    shapeCast S64x1 (multiReduction (F := Ideal) .add [1] S64 (shapeCast S64x2048 v Gen.shapeCasts_S1x64x2048_S64x2048)
        0x00000000#32 Gen.reduces_S64x2048_S64 (.inl rfl) rfl) Gen.shapeCasts_S64_S64x1 (ix2 i (0 : Fin 1)) = rowSum v i :=
  (Cert.RowReduce.shapeCast_a_a1_apply _ Gen.shapeCasts_S64_S64x1 i 0).trans
    ((Cert.RowReduce.multiReduction_add_row _ _ Gen.reduces_S64x2048_S64 (.inl rfl) rfl i).trans
      (Finset.sum_congr rfl fun k _ => shapeCast_1ab_ab_apply v Gen.shapeCasts_S1x64x2048_S64x2048 i k))

/-- The last stretch, of 1328 steps, likewise. -/
theorem colSum1328_apply (v : Vec Ideal S1x64x1328 .f32) (i : Fin 64) :
    shapeCast S64x1 (multiReduction (F := Ideal) .add [1] S64 (shapeCast S64x1328 v Gen.shapeCasts_S1x64x1328_S64x1328)
        0x00000000#32 Gen.reduces_S64x1328_S64 (.inl rfl) rfl) Gen.shapeCasts_S64_S64x1 (ix2 i (0 : Fin 1)) = rowSum v i :=
  (Cert.RowReduce.shapeCast_a_a1_apply _ Gen.shapeCasts_S64_S64x1 i 0).trans
    ((Cert.RowReduce.multiReduction_add_row _ _ Gen.reduces_S64x1328_S64 (.inl rfl) rfl i).trans
      (Finset.sum_congr rfl fun k _ => shapeCast_1ab_ab_apply v Gen.shapeCasts_S1x64x1328_S64x1328 i k))

/-! ## Small readings, stated over the body's own spellings -/

/-- The kernel's named constant is the rational 1/30000. -/
theorem inv_30000 : Named.named (F := Ideal) Cert.KernelIdeal.κ "inv_30000" (φ := .f32) 0x380BCF65#32 = ((1 / 30000 : ℝ) : EReal) :=
  IdealRules.named_const.ideal_named_scalar _ _ _ _ rfl

/-- The `[64, 64]` by `[64, 64]` product into a zero accumulator, at an entry. -/
theorem matmul64_apply (Q K : FVec Ideal S64x64 .f32) (c e : Fin 64) :
    matmul dot_S64x64_S64x64_S64x64_1_0_0_1_n_n none Q K (constant S64x64 .f32 0x00000000#32) (ix2 c e)
      = ∑ j : Fin 64, Q (ix2 c j) * K (ix2 j e) :=
  Cert.PlainMatmul.matmul_zero_apply (M := 64) (K := 64) (N := 64) none Q K c e

/-- The `[64, 64]` by `[64, 2048]` product into a zero accumulator, at an entry. -/
theorem matmul2048_apply (A : FVec Ideal S64x64 .f32) (X : FVec Ideal S64x2048 .f32) (c : Fin 64) (k : Fin 2048) :
    matmul dot_S64x64_S64x2048_S64x2048_1_0_0_1_n_n none A X (constant S64x2048 .f32 0x00000000#32) (ix2 c k)
      = ∑ e : Fin 64, A (ix2 c e) * X (ix2 e k) :=
  Cert.PlainMatmul.matmul_zero_apply (M := 64) (K := 64) (N := 2048) none A X c k

/-- The `[64, 64]` by `[64, 1328]` product into a zero accumulator, at an entry. -/
theorem matmul1328_apply (A : FVec Ideal S64x64 .f32) (X : FVec Ideal S64x1328 .f32) (c : Fin 64) (k : Fin 1328) :
    matmul dot_S64x64_S64x1328_S64x1328_1_0_0_1_n_n none A X (constant S64x1328 .f32 0x00000000#32) (ix2 c k)
      = ∑ e : Fin 64, A (ix2 c e) * X (ix2 e k) :=
  Cert.PlainMatmul.matmul_zero_apply (M := 64) (K := 64) (N := 1328) none A X c k

/-- The transposed matrix of the second projected vectors, at an entry. -/
theorem transpose64_apply (x : FVec Ideal S64x64 .f32) (j i : Fin 64) :
    transpose S64x64 [1, 0] x Gen.transposes_S64x64_p1_0_S64x64 (ix2 j i) = x (ix2 i j) :=
  transpose_ix2_apply x Gen.transposes_S64x64_p1_0_S64x64 j i

/-- An exponential at an entry. -/
theorem exp_apply {s : Shape} (x : FVec Ideal s .f32) (i : s.Idx) : exp x i = Ideal.exp (x i) := rfl

/-- A row's maximum kept as a column and broadcast back, at an entry. -/
theorem rowMax64_apply (L : FVec Ideal S64x64 .f32) (c e : Fin 64) :
    broadcastTo S64x64 (shapeCast S64x1 (maximumf (broadcast S64 (Scalar.ofBits (F := Ideal) .f32 0xFF800000#32))
        (multiReduction (F := Ideal) .maximumf [1] S64 L 0xFF800000#32 Gen.reduces_S64x64_S64 (.inl rfl) rfl)) Gen.shapeCasts_S64_S64x1)
        Gen.broadcasts_S64x1_S64x64 (ix2 c e)
      = Spec.rowMax (fun e' => L (ix2 c e')) := by
  rw [Cert.RowReduce.broadcastTo_column_apply _ Gen.shapeCasts_S64_S64x1 Gen.broadcasts_S64x1_S64x64 c e, maximumf_apply,
    broadcast_apply]
  refine (congrArg (max _) (Cert.RowReduce.multiReduction_maximumf_row L _ Gen.reduces_S64x64_S64 (.inl rfl) rfl c)).trans ?_
  rfl

/-- A row's sum kept as a column and broadcast back, at an entry. -/
theorem rowSum64_apply (E : FVec Ideal S64x64 .f32) (c e : Fin 64) :
    broadcastTo S64x64 (shapeCast S64x1 (multiReduction (F := Ideal) .add [1] S64 E 0x00000000#32 Gen.reduces_S64x64_S64 (.inl rfl) rfl)
        Gen.shapeCasts_S64_S64x1) Gen.broadcasts_S64x1_S64x64 (ix2 c e)
      = ∑ e' : Fin 64, E (ix2 c e') := by
  exact (Cert.RowReduce.broadcastTo_column_apply _ Gen.shapeCasts_S64_S64x1 Gen.broadcasts_S64x1_S64x64 c e).trans
    (Cert.RowReduce.multiReduction_add_row E _ Gen.reduces_S64x64_S64 (.inl rfl) rfl c)

/-! ## The running sums -/

/-- The first six stretches, added from zero. -/
theorem pay3_apply (v1 v6 v11 v16 v21 v26 : Vec Ideal S1x64x2048 .f32) (i : Fin 64) :
    k0_pay3 v1 v6 v11 v16 v21 v26 (ix2 i (0 : Fin 1))
      = 0 + rowSum v1 i + rowSum v6 i + rowSum v11 i + rowSum v16 i + rowSum v21 i + rowSum v26 i := by
  unfold k0_pay3
  simp only [addf_apply, broadcast_apply]
  rw [colSum2048_apply v1 i, colSum2048_apply v6 i, colSum2048_apply v11 i, colSum2048_apply v16 i, colSum2048_apply v21 i,
    colSum2048_apply v26 i, show (Scalar.ofBits (F := Ideal) .f32 0x00000000#32 : EReal) = 0 from Ideal.ofBits_zero_f32]

/-- The next seven stretches, added to what was carried. -/
theorem pay4_apply (a : FVec Ideal S64x1 .f32) (v31 v36 v41 v46 v51 v56 v61 : Vec Ideal S1x64x2048 .f32) (i : Fin 64) :
    k0_pay4 a v31 v36 v41 v46 v51 v56 v61 (ix2 i (0 : Fin 1))
      = a (ix2 i (0 : Fin 1)) + rowSum v31 i + rowSum v36 i + rowSum v41 i + rowSum v46 i + rowSum v51 i + rowSum v56 i
          + rowSum v61 i := by
  unfold k0_pay4
  simp only [addf_apply]
  rw [colSum2048_apply v31 i, colSum2048_apply v36 i, colSum2048_apply v41 i, colSum2048_apply v46 i, colSum2048_apply v51 i,
    colSum2048_apply v56 i, colSum2048_apply v61 i]

/-! ## Means, logits and weights -/

/-- A `[1, 64]` row as a vector. -/
def row (w : Vec Ideal S1x64 .f32) : Fin 64 → EReal := fun j => w (ix2 (0 : Fin 1) j)

/-- The mean of channel `i`: what was carried, the last two stretches, times 1/30000. -/
def meanOf (a : FVec Ideal S64x1 .f32) (v66 : Vec Ideal S1x64x2048 .f32) (v71 : Vec Ideal S1x64x1328 .f32) (i : Fin 64) : EReal :=
  (a (ix2 i (0 : Fin 1)) + rowSum v66 i + rowSum v71 i) * ((1 / 30000 : ℝ) : EReal)

/-- The logits: the inner products of the two projected vectors, times 1/8. -/
theorem pay5_apply (a : FVec Ideal S64x1 .f32) (v66 : Vec Ideal S1x64x2048 .f32) (v71 : Vec Ideal S1x64x1328 .f32)
    (w1 w2 w3 w4 : Vec Ideal S1x64 .f32) (c e : Fin 64) :
    k0_pay5 a v66 v71 w1 w2 w3 w4 (ix2 c e)
      = Spec.logit (row w1) (row w2) (row w3) (row w4) (meanOf a v66 v71 c) (meanOf a v66 v71 e) := by
  unfold k0_pay5
  simp only [mulf_apply, broadcast_apply, matmul64_apply]
  unfold Spec.logit
  refine congrArg (· * _) (Finset.sum_congr rfl fun j _ => ?_)
  rw [transpose64_apply]
  simp only [mulf_apply, addf_apply, broadcast_apply, broadcastTo_1b_ab_apply, Cert.RowReduce.broadcastTo_a1_ab_apply,
    shapeCast_self, inv_30000]
  rw [colSum2048_apply v66 c, colSum1328_apply v71 c, colSum2048_apply v66 e, colSum1328_apply v71 e]
  rfl

/-- The row maxima of the logits, broadcast back. -/
theorem pay6_apply (a : FVec Ideal S64x1 .f32) (v66 : Vec Ideal S1x64x2048 .f32) (v71 : Vec Ideal S1x64x1328 .f32)
    (w1 w2 w3 w4 : Vec Ideal S1x64 .f32) (c e : Fin 64) :
    k0_pay6 a v66 v71 w1 w2 w3 w4 (ix2 c e) = Spec.rowMax (fun e' => k0_pay5 a v66 v71 w1 w2 w3 w4 (ix2 c e')) := by
  unfold k0_pay6
  exact rowMax64_apply _ c e

/-- The softmax weights of a matrix of logits and its broadcast row maxima. -/
theorem pay7_apply (L M : FVec Ideal S64x64 .f32) (c e : Fin 64) :
    k0_pay7 L M (ix2 c e)
      = Ideal.div (Ideal.exp (L (ix2 c e) - M (ix2 c e))) (∑ e' : Fin 64, Ideal.exp (L (ix2 c e') - M (ix2 c e'))) := by
  unfold k0_pay7
  simp only [divf_apply]
  rw [rowSum64_apply (exp (subf L M)) c e]
  simp only [exp_apply, subf_apply]

/-! ## One stretch of the output -/

/-- A stretch of 2048 steps of the output: the signal plus `α` times the weighted mix of the channels. -/
theorem pay13_apply (A : FVec Ideal S64x64 .f32) (al : FVec Ideal S1x1 .f32) (v : Vec Ideal S1x64x2048 .f32)
    (c : Fin 64) (k : Fin 2048) :
    k0_pay13 A al v (ix3 (0 : Fin 1) c k)
      = v (ix3 (0 : Fin 1) c k) + al (ix2 (0 : Fin 1) (0 : Fin 1)) * ∑ e : Fin 64, A (ix2 c e) * v (ix3 (0 : Fin 1) e k) := by
  unfold k0_pay13
  refine (shapeCast_ab_1ab_apply _ Gen.shapeCasts_S64x2048_S1x64x2048 0 c k).trans ?_
  simp only [addf_apply, mulf_apply, matmul2048_apply, shapeCast_1ab_ab_apply, broadcastTo_11_ab_apply]

/-- The last stretch, of 1328 steps, likewise. -/
theorem pay2_apply (A : FVec Ideal S64x64 .f32) (al : FVec Ideal S1x1 .f32) (v : Vec Ideal S1x64x1328 .f32)
    (c : Fin 64) (k : Fin 1328) :
    k0_pay2 A al v (ix3 (0 : Fin 1) c k)
      = v (ix3 (0 : Fin 1) c k) + al (ix2 (0 : Fin 1) (0 : Fin 1)) * ∑ e : Fin 64, A (ix2 c e) * v (ix3 (0 : Fin 1) e k) := by
  unfold k0_pay2
  refine (shapeCast_ab_1ab_apply _ Gen.shapeCasts_S64x1328_S1x64x1328 0 c k).trans ?_
  simp only [addf_apply, mulf_apply, matmul1328_apply, shapeCast_1ab_ab_apply, broadcastTo_11_ab_apply]

end Cert.KernelValue

end
-- ==== Proof.KernelBlock.lean ====
/-
  What the kernel body leaves in its output block, as one function of its input blocks.

  The body reads the signal block fifteen times, a stretch of time steps at a time, and stores fifteen stretches of the
  output. Each stored stretch is shown to be the matching stretch of ONE function of the whole block, `blockOut`: the
  specification's formula at the block's channels and times. For that the means the body accumulates stretch by
  stretch are identified with the means over all 30000 steps (a regrouping of the sum), and with them the logits, the
  row maxima and the softmax weights.
-/
import proofs.«154775_j89154931131039_2_alg».proof.Proof.Gen.KernelIdeal.Frame.RunA
import proofs.«154775_j89154931131039_2_alg».proof.Proof.KernelOps
import Idealize.ShloMosaic.Lib.Pipeline.Value

noncomputable section

open scoped BigOperators

namespace Cert.KernelValue

open Idealize.ShloMosaic Idealize.ShloMosaic.ValueIdx Idealize.ShloMosaic.TcCoe Idealize.ShloMosaic.Tactic
open Cert.KernelIdeal Cert.KernelIdeal.Gen

/-! ## Loads of the input blocks, read at an index -/

/-- The stretch of `w` time steps from `off` of the signal block, as the body loads it. -/
abbrev ldx (x0 : Vec Ideal S1x64x30000 .f32) (off w : ℕ)
    (inb : ∀ a, (![0, 0, off] : Fin 3 → ℕ) a + (![1, 64, w] : Fin 3 → ℕ) a ≤ S1x64x30000.size a) :=
  View.ld x0 (Rect.unit (s := S1x64x30000) ![0, 0, off] ![1, 64, w] inb)

/-- Entry `(0, c, k)` of a stretch is entry `(0, c, off + k)` of the block. -/
theorem ldx_apply (x0 : Vec Ideal S1x64x30000 .f32) (off w : ℕ) (inb) (hle : off + w ≤ 30000) (c : Fin 64) (k : Fin w) :
    ldx x0 off w inb (ix3 (0 : Fin 1) c k) = x0 (ix3 (0 : Fin 1) c ⟨off + k.val, by have := k.isLt; omega⟩) := by
  show x0 _ = x0 _
  refine congrArg x0 (funext fun a => Fin.ext ?_)
  match a with
  | ⟨0, _⟩ => rfl
  | ⟨1, _⟩ => show 0 + 1 * c.val = c.val; omega
  | ⟨2, _⟩ => show off + 1 * k.val = off + k.val; omega

/-- The place in the block of entry `(0, c, k)` of a stretch. -/
theorem emb_stretch (off w : ℕ) (inb) (hle : off + w ≤ 30000) (c : Fin 64) (k : Fin w) :
    (Rect.unit (s := S1x64x30000) ![0, 0, off] ![1, 64, w] inb).emb (ix3 (0 : Fin 1) c k)
      = ix3 (0 : Fin 1) c ⟨off + k.val, by have := k.isLt; omega⟩ := by
  refine funext fun a => Fin.ext ?_
  match a with
  | ⟨0, _⟩ => rfl
  | ⟨1, _⟩ => show 0 + 1 * c.val = c.val; omega
  | ⟨2, _⟩ => show off + 1 * k.val = off + k.val; omega

/-- A stretch summed along time is the matching stretch of the channel's row. -/
theorem rowSum_ldx (x0 : Vec Ideal S1x64x30000 .f32) (off w : ℕ) (inb) (hle : off + w ≤ 30000) (i : Fin 64) :
    rowSum (ldx x0 off w inb) i = Spec.csum (fun t => x0 (ix3 (0 : Fin 1) i t)) off w hle :=
  Finset.sum_congr rfl fun k _ => ldx_apply x0 off w inb hle i k

/-- A `[1, 64]` row loaded whole is the row. -/
theorem row_ld (w : Vec Ideal S1x64 .f32) :
    row (View.ld w (Rect.unit (s := S1x64) ![0, 0] ![1, 64] inb_S1x64_S1x64_0_0)) = row w := by
  funext j
  show w _ = w _
  refine congrArg w (funext fun a => Fin.ext ?_)
  match a with
  | ⟨0, _⟩ => rfl
  | ⟨1, _⟩ => show 0 + 1 * j.val = j.val; omega

/-- Softmax weights from logits that are known entry by entry and their broadcast row maxima. -/
theorem weight_of (L M : FVec Ideal S64x64 .f32) (l : Fin 64 → Fin 64 → EReal) (hL : ∀ c e, L (ix2 c e) = l c e)
    (hM : ∀ c e, M (ix2 c e) = Spec.rowMax (fun e' => L (ix2 c e'))) (c e : Fin 64) :
    k0_pay7 L M (ix2 c e) = Spec.weight (l c) e := by
  rw [pay7_apply]
  simp only [hM, hL]
  rfl

/-! ## The body's means, logits and weights are the specification's -/

section Run

variable (x0 : Vec Ideal S1x64x30000 .f32) (x1 x2 x3 x4 : Vec Ideal S1x64 .f32) (x5 : Vec Ideal S1x1 .f32)

/-- The signal block as channels by times. -/
def sigOf : Fin 64 → Fin 30000 → EReal := fun c t => x0 (ix3 (0 : Fin 1) c t)

/-- The sums of the first thirteen stretches, as the body carries them. -/
abbrev accK : FVec Ideal S64x1 .f32 :=
  k0_pay4 (k0_pay3 (ldx x0 0 2048 inb_S1x64x30000_S1x64x2048_0_0_0) (ldx x0 2048 2048 inb_S1x64x30000_S1x64x2048_0_0_2048) (ldx x0 4096 2048 inb_S1x64x30000_S1x64x2048_0_0_4096) (ldx x0 6144 2048 inb_S1x64x30000_S1x64x2048_0_0_6144) (ldx x0 8192 2048 inb_S1x64x30000_S1x64x2048_0_0_8192) (ldx x0 10240 2048 inb_S1x64x30000_S1x64x2048_0_0_10240))
    (ldx x0 12288 2048 inb_S1x64x30000_S1x64x2048_0_0_12288) (ldx x0 14336 2048 inb_S1x64x30000_S1x64x2048_0_0_14336) (ldx x0 16384 2048 inb_S1x64x30000_S1x64x2048_0_0_16384) (ldx x0 18432 2048 inb_S1x64x30000_S1x64x2048_0_0_18432) (ldx x0 20480 2048 inb_S1x64x30000_S1x64x2048_0_0_20480) (ldx x0 22528 2048 inb_S1x64x30000_S1x64x2048_0_0_22528) (ldx x0 24576 2048 inb_S1x64x30000_S1x64x2048_0_0_24576)

/-- A `[1, 64]` row as the body loads it. -/
abbrev ldr (w : Vec Ideal S1x64 .f32) := View.ld w (Rect.unit (s := S1x64) ![0, 0] ![1, 64] inb_S1x64_S1x64_0_0)

/-- The body's logits. -/
abbrev logitsK : FVec Ideal S64x64 .f32 :=
  k0_pay5 (accK x0) (ldx x0 26624 2048 inb_S1x64x30000_S1x64x2048_0_0_26624) (ldx x0 28672 1328 inb_S1x64x30000_S1x64x1328_0_0_28672) (ldr x1) (ldr x2) (ldr x3) (ldr x4)

/-- The body's row maxima, broadcast back. -/
abbrev maxK : FVec Ideal S64x64 .f32 :=
  k0_pay6 (accK x0) (ldx x0 26624 2048 inb_S1x64x30000_S1x64x2048_0_0_26624) (ldx x0 28672 1328 inb_S1x64x30000_S1x64x1328_0_0_28672) (ldr x1) (ldr x2) (ldr x3) (ldr x4)

/-- The body's softmax weights. -/
abbrev attnK : FVec Ideal S64x64 .f32 := k0_pay7 (logitsK x0 x1 x2 x3 x4) (maxK x0 x1 x2 x3 x4)

/-- The body's `α`. -/
abbrev alphaK : FVec Ideal S1x1 .f32 := k0_pay8 (View.ld x5 (Rect.unit (s := S1x1) ![0, 0] ![1, 1] inb_S1x1_S1x1_0_0))

/-- The body's `α` is the one entry of its `[1, 1]` block. -/
theorem alpha_ld : alphaK x5 (ix2 (0 : Fin 1) (0 : Fin 1)) = x5 (ix2 (0 : Fin 1) (0 : Fin 1)) := by
  unfold alphaK k0_pay8
  rw [shapeCast_self]
  show x5 _ = x5 _
  refine congrArg x5 (funext fun a => Fin.ext ?_)
  match a with
  | ⟨0, _⟩ => rfl
  | ⟨1, _⟩ => rfl

/-- The mean the body forms from its fifteen partial sums is the mean over all 30000 steps. -/
theorem mean_run (i : Fin 64) :
    meanOf (accK x0) (ldx x0 26624 2048 inb_S1x64x30000_S1x64x2048_0_0_26624) (ldx x0 28672 1328 inb_S1x64x30000_S1x64x1328_0_0_28672) i = Spec.mean (sigOf x0 i) := by
  unfold meanOf accK
  rw [pay4_apply, pay3_apply,
    rowSum_ldx x0 0 2048 inb_S1x64x30000_S1x64x2048_0_0_0 (by omega) i,
    rowSum_ldx x0 2048 2048 inb_S1x64x30000_S1x64x2048_0_0_2048 (by omega) i,
    rowSum_ldx x0 4096 2048 inb_S1x64x30000_S1x64x2048_0_0_4096 (by omega) i,
    rowSum_ldx x0 6144 2048 inb_S1x64x30000_S1x64x2048_0_0_6144 (by omega) i,
    rowSum_ldx x0 8192 2048 inb_S1x64x30000_S1x64x2048_0_0_8192 (by omega) i,
    rowSum_ldx x0 10240 2048 inb_S1x64x30000_S1x64x2048_0_0_10240 (by omega) i,
    rowSum_ldx x0 12288 2048 inb_S1x64x30000_S1x64x2048_0_0_12288 (by omega) i,
    rowSum_ldx x0 14336 2048 inb_S1x64x30000_S1x64x2048_0_0_14336 (by omega) i,
    rowSum_ldx x0 16384 2048 inb_S1x64x30000_S1x64x2048_0_0_16384 (by omega) i,
    rowSum_ldx x0 18432 2048 inb_S1x64x30000_S1x64x2048_0_0_18432 (by omega) i,
    rowSum_ldx x0 20480 2048 inb_S1x64x30000_S1x64x2048_0_0_20480 (by omega) i,
    rowSum_ldx x0 22528 2048 inb_S1x64x30000_S1x64x2048_0_0_22528 (by omega) i,
    rowSum_ldx x0 24576 2048 inb_S1x64x30000_S1x64x2048_0_0_24576 (by omega) i,
    rowSum_ldx x0 26624 2048 inb_S1x64x30000_S1x64x2048_0_0_26624 (by omega) i,
    rowSum_ldx x0 28672 1328 inb_S1x64x30000_S1x64x1328_0_0_28672 (by omega) i]
  exact congrArg (· * ((1 / 30000 : ℝ) : EReal)) (Spec.chunked_eq (sigOf x0 i))

/-- The body's logits are the specification's. -/
theorem logits_run (c e : Fin 64) :
    logitsK x0 x1 x2 x3 x4 (ix2 c e) = Spec.logits (sigOf x0) (row x1) (row x2) (row x3) (row x4) c e := by
  unfold logitsK ldr
  rw [pay5_apply, row_ld, row_ld, row_ld, row_ld, mean_run, mean_run]
  rfl

/-- The body's softmax weights are the specification's. -/
theorem attn_run (c e : Fin 64) :
    attnK x0 x1 x2 x3 x4 (ix2 c e) = Spec.weight (Spec.logits (sigOf x0) (row x1) (row x2) (row x3) (row x4) c) e :=
  weight_of (logitsK x0 x1 x2 x3 x4) (maxK x0 x1 x2 x3 x4) (Spec.logits (sigOf x0) (row x1) (row x2) (row x3) (row x4))
    (logits_run x0 x1 x2 x3 x4) (fun c e => pay6_apply _ _ _ _ _ _ _ c e) c e

/-! ## The output block -/

/-- The output block as one function of the input blocks: the specification at the block's channels and times. -/
def blockOut : Vec Ideal S1x64x30000 .f32 := fun y =>
  Spec.out (sigOf x0) (row x1) (row x2) (row x3) (row x4) (x5 (ix2 (0 : Fin 1) (0 : Fin 1)))
    ⟨(y 1).val, (y 1).isLt⟩ ⟨(y 2).val, (y 2).isLt⟩

theorem blockOut_ix3 (c : Fin 64) (t : Fin 30000) :
    blockOut x0 x1 x2 x3 x4 x5 (ix3 (0 : Fin 1) c t)
      = Spec.out (sigOf x0) (row x1) (row x2) (row x3) (row x4) (x5 (ix2 (0 : Fin 1) (0 : Fin 1))) c t := rfl

/-- A stored stretch of 2048 steps is that stretch of the output block. -/
theorem stretch_piece (off : ℕ) (inb) (hle : off + 2048 ≤ 30000)
    (x : (Rect.unit (s := S1x64x30000) ![0, 0, off] ![1, 64, 2048] inb).shape.Idx) :
    k0_pay13 (attnK x0 x1 x2 x3 x4) (alphaK x5) (ldx x0 off 2048 inb) x
      = blockOut x0 x1 x2 x3 x4 x5 ((Rect.unit (s := S1x64x30000) ![0, 0, off] ![1, 64, 2048] inb).emb x) := by
  obtain ⟨u, c, k, rfl⟩ : ∃ (u : Fin 1) (c : Fin 64) (k : Fin 2048), x = ix3 u c k := ⟨x 0, x 1, x 2, eq_ix3 x⟩
  obtain rfl : u = 0 := Subsingleton.elim _ _
  rw [emb_stretch off 2048 inb hle c k, blockOut_ix3, pay13_apply, alpha_ld, ldx_apply x0 off 2048 inb hle c k]
  unfold Spec.out
  refine congrArg (sigOf x0 c _ + x5 (ix2 (0 : Fin 1) (0 : Fin 1)) * ·) (Finset.sum_congr rfl fun e _ => ?_)
  rw [attn_run, ldx_apply x0 off 2048 inb hle e k]
  rfl

/-- The stored last stretch, of 1328 steps, likewise. -/
theorem tail_piece (inb) (x : (Rect.unit (s := S1x64x30000) ![0, 0, 28672] ![1, 64, 1328] inb).shape.Idx) :
    k0_pay2 (attnK x0 x1 x2 x3 x4) (alphaK x5) (ldx x0 28672 1328 inb) x
      = blockOut x0 x1 x2 x3 x4 x5 ((Rect.unit (s := S1x64x30000) ![0, 0, 28672] ![1, 64, 1328] inb).emb x) := by
  obtain ⟨u, c, k, rfl⟩ : ∃ (u : Fin 1) (c : Fin 64) (k : Fin 1328), x = ix3 u c k := ⟨x 0, x 1, x 2, eq_ix3 x⟩
  obtain rfl : u = 0 := Subsingleton.elim _ _
  rw [emb_stretch 28672 1328 inb (by omega) c k, blockOut_ix3, pay2_apply, alpha_ld, ldx_apply x0 28672 1328 inb (by omega) c k]
  unfold Spec.out
  refine congrArg (sigOf x0 c _ + x5 (ix2 (0 : Fin 1) (0 : Fin 1)) * ·) (Finset.sum_congr rfl fun e _ => ?_)
  rw [attn_run, ldx_apply x0 28672 1328 inb (by omega) e k]
  rfl

end Run

/-! ## The body's several spellings of one stretch -/

section Spellings

variable (A L M : FVec Ideal S64x64 .f32) (al : FVec Ideal S1x1 .f32) (a5 : Vec Ideal S1x1 .f32) (v : Vec Ideal S1x64x2048 .f32)

theorem pay14_eq : k0_pay14 A al v = k0_pay13 A al v := rfl
theorem pay15_eq : k0_pay15 A al v = k0_pay13 A al v := rfl
theorem pay19_eq : k0_pay19 A al v = k0_pay13 A al v := rfl
theorem pay20_eq : k0_pay20 A al v = k0_pay13 A al v := rfl
theorem pay21_eq : k0_pay21 A al v = k0_pay13 A al v := rfl
theorem pay22_eq : k0_pay22 A al v = k0_pay13 A al v := rfl
theorem pay23_eq : k0_pay23 A al v = k0_pay13 A al v := rfl
theorem pay24_eq : k0_pay24 A al v = k0_pay13 A al v := rfl
theorem pay9_eq : k0_pay9 L M a5 v = k0_pay13 (k0_pay7 L M) (k0_pay8 a5) v := rfl
theorem pay10_eq : k0_pay10 L M a5 v = k0_pay13 (k0_pay7 L M) (k0_pay8 a5) v := rfl
theorem pay12_eq : k0_pay12 (k0_pay11 L M a5 v) = k0_pay13 (k0_pay7 L M) (k0_pay8 a5) v := rfl
theorem pay18_eq : k0_pay18 al (k0_pay16 v) (k0_pay17 A v) = k0_pay13 A al v := rfl
theorem pay1_eq : k0_pay1 (k0_pay25 v) (k0_pay26 A v) (k0_pay27 al) = k0_pay13 A al v := rfl

end Spellings

/-! ## The run's fifteen stores -/

/-- Every stretch the body stores is the matching stretch of `blockOut` of its input blocks. -/
theorem pieces (c : Dev nD) (i : grid0.Coords) (arg1 : Memref sig .tc .vmem S1x64x30000 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1x64x30000 .f32) (harg7 : arg7.IsWhole)
    (x0 : Vec Ideal S1x64x30000 .f32) (x1 : Vec Ideal S1x64 .f32) (x2 : Vec Ideal S1x64 .f32) (x3 : Vec Ideal S1x64 .f32) (x4 : Vec Ideal S1x64 .f32) (x5 : Vec Ideal S1x1 .f32) :
    ∀ p ∈ (kernelRun0_A (F := Ideal) c i arg1 harg1 arg2 harg2 arg3 harg3 arg4 harg4 arg5 harg5 arg6 harg6 arg7 harg7 x0 x1 x2 x3 x4 x5).1,
      ∀ x : p.1.shape.Idx, p.2 x = blockOut x0 x1 x2 x3 x4 x5 (p.1.emb x) := by
  unfold kernelRun0_A
  dsimp only
  sl_unfold_run_names
  simp only [View.readAt_eq_ld, harg1.read_unread, harg2.read_unread, harg3.read_unread, harg4.read_unread,
    harg5.read_unread, harg6.read_unread, pay14_eq, pay15_eq, pay19_eq, pay20_eq, pay21_eq, pay22_eq, pay23_eq, pay24_eq,
    pay9_eq, pay10_eq, pay12_eq, pay18_eq, pay1_eq]
  intro p hp
  simp only [List.mem_cons, List.not_mem_nil, or_false] at hp
  rcases hp with rfl | rfl | rfl | rfl | rfl | rfl | rfl | rfl | rfl | rfl | rfl | rfl | rfl | rfl | rfl
  · exact tail_piece x0 x1 x2 x3 x4 x5 _
  · exact stretch_piece x0 x1 x2 x3 x4 x5 26624 _ (by omega)
  · exact stretch_piece x0 x1 x2 x3 x4 x5 24576 _ (by omega)
  · exact stretch_piece x0 x1 x2 x3 x4 x5 22528 _ (by omega)
  · exact stretch_piece x0 x1 x2 x3 x4 x5 20480 _ (by omega)
  · exact stretch_piece x0 x1 x2 x3 x4 x5 18432 _ (by omega)
  · exact stretch_piece x0 x1 x2 x3 x4 x5 16384 _ (by omega)
  · exact stretch_piece x0 x1 x2 x3 x4 x5 14336 _ (by omega)
  · exact stretch_piece x0 x1 x2 x3 x4 x5 12288 _ (by omega)
  · exact stretch_piece x0 x1 x2 x3 x4 x5 10240 _ (by omega)
  · exact stretch_piece x0 x1 x2 x3 x4 x5 8192 _ (by omega)
  · exact stretch_piece x0 x1 x2 x3 x4 x5 6144 _ (by omega)
  · exact stretch_piece x0 x1 x2 x3 x4 x5 4096 _ (by omega)
  · exact stretch_piece x0 x1 x2 x3 x4 x5 2048 _ (by omega)
  · exact stretch_piece x0 x1 x2 x3 x4 x5 0 _ (by omega)

end Cert.KernelValue

end
-- ==== Proof.KernelArray.lean ====
/-
  The kernel's result array, as one function of its argument arrays.

  Grid point `t` works on batch entry `t`: its signal block is rows `(t, ·, ·)` of the signal array, the four rows and the
  scalar are the same small arrays at every point, and what it writes back is rows `(t, ·, ·)` of the result. So the
  block function of the body, read through point `t`'s block, is ONE function `arrOut` of the whole arrays, and as the
  32 blocks cover the result array, the array ends holding `arrOut`. The small arrays are reshapes of the arguments
  (a `[64, 1]` weight column or a `[64]` bias laid as a `[1, 64]` row, the scalar as `[1, 1]`), read here at an index.
-/
import proofs.«154775_j89154931131039_2_alg».proof.Proof.ValueIdealP
import proofs.«154775_j89154931131039_2_alg».proof.Proof.KernelBlock
import Idealize.ShloMosaic.Lib.Pipeline.Value
import Idealize.ShloMosaic.Lib.StableHlo.Run
import Idealize.ShloMosaic.Lib.ValueLayout

noncomputable section

open scoped BigOperators

namespace Cert.KernelValue

open Idealize.ShloMosaic Idealize.ShloMosaic.ValueIdx Idealize.ShloMosaic.TcCoe Idealize.SL.Sem Idealize.ShloMosaic.StableHlo
open Cert.KernelIdeal Cert.KernelIdeal.Gen Cert.KernelIdeal.GenP Cert.KernelIdeal.ValueP
open Idealize.ShloMosaic.Pipeline (Dat)

/-! ## The body's output block is `blockOut` -/

/-- What the body leaves in the output's staging buffer is `blockOut` of its input blocks: its fifteen stores cover
    the block, and each is a stretch of `blockOut`. -/
theorem out_eq (c : Dev nD) (i : grid0.Coords) (arg1 : Memref sig .tc .vmem S1x64x30000 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1x64x30000 .f32) (harg7 : arg7.IsWhole)
    (x0 : Vec Ideal S1x64x30000 .f32) (x1 : Vec Ideal S1x64 .f32) (x2 : Vec Ideal S1x64 .f32) (x3 : Vec Ideal S1x64 .f32) (x4 : Vec Ideal S1x64 .f32) (x5 : Vec Ideal S1x1 .f32) :
    out0_A_6 (F := Ideal) c i arg1 harg1 arg2 harg2 arg3 harg3 arg4 harg4 arg5 harg5 arg6 harg6 arg7 harg7 x0 x1 x2 x3 x4 x5 = blockOut x0 x1 x2 x3 x4 x5 := by
  funext y
  unfold out0_A_6
  rw [View.read_writes_junk_apply_eq_canon]
  exact View.canon_apply_of_pieces (blockOut x0 x1 x2 x3 x4 x5) _ (pieces c i arg1 harg1 arg2 harg2 arg3 harg3 arg4 harg4 arg5 harg5 arg6 harg6 arg7 harg7 x0 x1 x2 x3 x4 x5) y
    (cover0_A_6 c i arg1 harg1 arg2 harg2 arg3 harg3 arg4 harg4 arg5 harg5 arg6 harg6 arg7 harg7 x0 x1 x2 x3 x4 x5 y)

/-! ## One function of the whole arrays -/

/-- The result array as a function of the signal array, the four `[1, 64]` rows and the `[1, 1]` scalar: at
    `(b, c, t)` the specification's formula at batch entry `b`. -/
def arrOut (X : S32x64x30000.Idx → EReal) (W1 W2 W3 W4 : S1x64.Idx → EReal) (A5 : S1x1.Idx → EReal) :
    S32x64x30000.Idx → EReal := fun i =>
  Spec.out (fun c t => X (ix3 (⟨(i 0).val, (i 0).isLt⟩ : Fin 32) c t)) (row W1) (row W2) (row W3) (row W4)
    (A5 (ix2 (0 : Fin 1) (0 : Fin 1))) ⟨(i 1).val, (i 1).isLt⟩ ⟨(i 2).val, (i 2).isLt⟩

theorem arrOut_ix3 (X : S32x64x30000.Idx → EReal) (W1 W2 W3 W4 : S1x64.Idx → EReal) (A5 : S1x1.Idx → EReal)
    (b : Fin 32) (c : Fin 64) (t : Fin 30000) :
    arrOut X W1 W2 W3 W4 A5 (ix3 b c t)
      = Spec.out (fun c t => X (ix3 b c t)) (row W1) (row W2) (row W3) (row W4) (A5 (ix2 (0 : Fin 1) (0 : Fin 1))) c t := rfl

/-- The block function at an index of a block is the array function at the index's place in the array, when the
    block's entries are the arrays' entries of batch entry `b`. -/
theorem block_eq_arr (X : S32x64x30000.Idx → EReal) (W1 W2 W3 W4 : S1x64.Idx → EReal) (A5 : S1x1.Idx → EReal)
    (x0 : Vec Ideal S1x64x30000 .f32) (x1 x2 x3 x4 : Vec Ideal S1x64 .f32) (x5 : Vec Ideal S1x1 .f32)
    (y : S1x64x30000.Idx) (i : S32x64x30000.Idx) (b : Fin 32)
    (hb : (i 0).val = b.val) (h1 : (i 1).val = (y 1).val) (h2 : (i 2).val = (y 2).val)
    (hx0 : ∀ c t, x0 (ix3 (0 : Fin 1) c t) = X (ix3 b c t))
    (hx1 : ∀ j, x1 (ix2 (0 : Fin 1) j) = W1 (ix2 (0 : Fin 1) j)) (hx2 : ∀ j, x2 (ix2 (0 : Fin 1) j) = W2 (ix2 (0 : Fin 1) j))
    (hx3 : ∀ j, x3 (ix2 (0 : Fin 1) j) = W3 (ix2 (0 : Fin 1) j)) (hx4 : ∀ j, x4 (ix2 (0 : Fin 1) j) = W4 (ix2 (0 : Fin 1) j))
    (hx5 : x5 (ix2 (0 : Fin 1) (0 : Fin 1)) = A5 (ix2 (0 : Fin 1) (0 : Fin 1))) :
    blockOut x0 x1 x2 x3 x4 x5 y = arrOut X W1 W2 W3 W4 A5 i := by
  unfold blockOut arrOut
  have e0 : (⟨(i 0).val, (i 0).isLt⟩ : Fin 32) = b := Fin.ext hb
  have e1 : (⟨(i 1).val, (i 1).isLt⟩ : Fin 64) = ⟨(y 1).val, (y 1).isLt⟩ := Fin.ext h1
  have e2 : (⟨(i 2).val, (i 2).isLt⟩ : Fin 30000) = ⟨(y 2).val, (y 2).isLt⟩ := Fin.ext h2
  have s0 : sigOf x0 = fun c t => X (ix3 b c t) := funext fun c => funext fun t => hx0 c t
  have r1 : row x1 = row W1 := funext hx1
  have r2 : row x2 = row W2 := funext hx2
  have r3 : row x3 = row W3 := funext hx3
  have r4 : row x4 = row W4 := funext hx4
  rw [e0, e1, e2, s0, r1, r2, r3, r4, hx5]

/-! ## Point by point, and the whole array -/

variable (m : (ℓ : Loc nD τ sig) → Buf (Elt Ideal) ℓ) (ρ : Dev nD → PrngReg)

/-- The printed index maps, decided over the 32 grid points: point `t` reads and writes batch entry `t`; every
    other block index is zero. -/
theorem idx_facts : ∀ t : Fin cfg0.N,
    win0_6.index t (0 : Fin 3) = t.val ∧ win0_6.index t (1 : Fin 3) = 0 ∧ win0_6.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The result array's function of the arrays as the region finds them. -/
abbrev arrOutV (c : Dev nD) : S32x64x30000.Idx → EReal :=
  arrOut (V m c main_arg0) (V m c main_v1) (V m c main_v2) (V m c main_v4) (V m c main_v5) (V m c main_v6)

/-- WHAT POINT `t` WRITES BACK is block `t` of `arrOut` of the arrays as the region finds them. -/
theorem flushed_eq (c : Dev nD) (t : Fin cfg0.N) :
    (dats m 0 c).flushed 6 t = ((cfg0.win 6).blk t).view.read (Elt Ideal) (arrOutV m c) := by
  refine (flushed6_A m c t).trans ?_
  refine (congrArg ((cfg0.win 6).cut (grid0.coords t)) (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t))).trans ?_
  obtain ⟨e60, e61, e62, e00, e01, e02, e10, e11, e20, e21, e30, e31, e40, e41, e50, e51⟩ := idx_facts t
  have ht : t.val < 32 := Nat.lt_of_lt_of_eq t.isLt (N_0 : cfg0.N = 32)
  funext j
  show blockOut (iblk m c 0 t) (iblk m c 1 t) (iblk m c 2 t) (iblk m c 3 t) (iblk m c 4 t) (iblk m c 5 t) j
      = arrOutV m c (((cfg0.win 6).blk t).view.emb j)
  refine block_eq_arr (V m c main_arg0) (V m c main_v1) (V m c main_v2) (V m c main_v4) (V m c main_v5) (V m c main_v6)
    (iblk m c 0 t) (iblk m c 1 t) (iblk m c 2 t) (iblk m c 3 t) (iblk m c 4 t) (iblk m c 5 t) j
    (((cfg0.win 6).blk t).view.emb j) ⟨t.val, ht⟩ ?_ ?_ ?_ ?_ ?_ ?_ ?_ ?_ ?_
  · show win0_6.index t (0 : Fin 3) * 1 + 1 * (j 0).val = t.val
    have hj : (j 0).val < 1 := (j 0).isLt
    omega
  · show win0_6.index t (1 : Fin 3) * 64 + 1 * (j 1).val = (j 1).val
    omega
  · show win0_6.index t (2 : Fin 3) * 30000 + 1 * (j 2).val = (j 2).val
    omega
  · intro c' t'
    show V m c main_arg0 (((cfg0.win 0).blk t).view.emb (ix3 (0 : Fin 1) c' t')) = V m c main_arg0 (ix3 ⟨t.val, ht⟩ c' t')
    refine congrArg (V m c main_arg0) (funext fun a => Fin.ext ?_)
    match a with
    | ⟨0, _⟩ => show win0_0.index t (0 : Fin 3) * 1 + 1 * 0 = t.val; omega
    | ⟨1, _⟩ => show win0_0.index t (1 : Fin 3) * 64 + 1 * c'.val = c'.val; omega
    | ⟨2, _⟩ => show win0_0.index t (2 : Fin 3) * 30000 + 1 * t'.val = t'.val; omega
  · intro j'
    show V m c main_v1 (((cfg0.win 1).blk t).view.emb (ix2 (0 : Fin 1) j')) = V m c main_v1 (ix2 (0 : Fin 1) j')
    refine congrArg (V m c main_v1) (funext fun a => Fin.ext ?_)
    match a with
    | ⟨0, _⟩ => show win0_1.index t (0 : Fin 2) * 1 + 1 * 0 = 0; omega
    | ⟨1, _⟩ => show win0_1.index t (1 : Fin 2) * 64 + 1 * j'.val = j'.val; omega
  · intro j'
    show V m c main_v2 (((cfg0.win 2).blk t).view.emb (ix2 (0 : Fin 1) j')) = V m c main_v2 (ix2 (0 : Fin 1) j')
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 64 + 1 * j'.val = j'.val; omega
  · intro j'
    show V m c main_v4 (((cfg0.win 3).blk t).view.emb (ix2 (0 : Fin 1) j')) = V m c main_v4 (ix2 (0 : Fin 1) j')
    refine congrArg (V m c main_v4) (funext fun a => Fin.ext ?_)
    match a with
    | ⟨0, _⟩ => show win0_3.index t (0 : Fin 2) * 1 + 1 * 0 = 0; omega
    | ⟨1, _⟩ => show win0_3.index t (1 : Fin 2) * 64 + 1 * j'.val = j'.val; omega
  · intro j'
    show V m c main_v5 (((cfg0.win 4).blk t).view.emb (ix2 (0 : Fin 1) j')) = V m c main_v5 (ix2 (0 : Fin 1) j')
    refine congrArg (V m c main_v5) (funext fun a => Fin.ext ?_)
    match a with
    | ⟨0, _⟩ => show win0_4.index t (0 : Fin 2) * 1 + 1 * 0 = 0; omega
    | ⟨1, _⟩ => show win0_4.index t (1 : Fin 2) * 64 + 1 * j'.val = j'.val; omega
  · show V m c main_v6 (((cfg0.win 5).blk t).view.emb (ix2 (0 : Fin 1) (0 : Fin 1))) = V m c main_v6 (ix2 (0 : Fin 1) (0 : Fin 1))
    refine congrArg (V m c main_v6) (funext fun a => Fin.ext ?_)
    match a with
    | ⟨0, _⟩ => show win0_5.index t (0 : Fin 2) * 1 + 1 * 0 = 0; omega
    | ⟨1, _⟩ => show win0_5.index t (1 : Fin 2) * 1 + 1 * 0 = 0; omega

/-- An index of the result array is in point `t`'s block iff each coordinate is in the block's range on its axis. -/
theorem mem_blk (t : Fin cfg0.N) (i : S32x64x30000.Idx) :
    i ∈ ((cfg0.win 6).blk t).view.set ↔ ∀ a : Fin 3, win0_6.index t a * S1x64x30000.size a ≤ (i a).val
      ∧ (i a).val < win0_6.index t a * S1x64x30000.size a + S1x64x30000.size a := by
  show i ∈ ((View.whole main_v7).slice (win0_6.rect t)).set ↔ _
  rw [View.set_slice_whole, Rect.mem_set_unit]
  exact Iff.rfl

/-- Every index of the result array is in the block of the point of its batch entry. -/
theorem cover (i : S32x64x30000.Idx) :
    ∃ t : Fin cfg0.N, (cfg0.win 6).flush t = true ∧ i ∈ ((cfg0.win 6).blk t).view.set := by
  have hi0 : (i 0).val < 32 := (i 0).isLt
  have hi1 : (i 1).val < 64 := (i 1).isLt
  have hi2 : (i 2).val < 30000 := (i 2).isLt
  have hN : cfg0.N = 32 := N_0
  obtain ⟨t0, hv⟩ : ∃ t0 : Fin cfg0.N, t0.val = (i 0).val := ⟨⟨(i 0).val, Nat.lt_of_lt_of_eq hi0 hN.symm⟩, rfl⟩
  obtain ⟨e60, e61, e62, -⟩ := idx_facts t0
  refine ⟨t0, flush0_6 t0, ?_⟩
  rw [mem_blk]
  intro a
  match a with
  | ⟨0, _⟩ =>
    show win0_6.index t0 (0 : Fin 3) * 1 ≤ (i 0).val ∧ (i 0).val < win0_6.index t0 (0 : Fin 3) * 1 + 1
    rw [e60, hv]; omega
  | ⟨1, _⟩ =>
    show win0_6.index t0 (1 : Fin 3) * 64 ≤ (i 1).val ∧ (i 1).val < win0_6.index t0 (1 : Fin 3) * 64 + 64
    rw [e61]; omega
  | ⟨2, _⟩ =>
    show win0_6.index t0 (2 : Fin 3) * 30000 ≤ (i 2).val ∧ (i 2).val < win0_6.index t0 (2 : Fin 3) * 30000 + 30000
    rw [e62]; omega

/-- THE RESULT ARRAY after the run is `arrOut` of the arrays as the region finds them. -/
theorem final (c : Dev nD) : (dats m 0 c).arrAt 6 cfg0.N = arrOutV m c :=
  (dats m 0 c).arrAt_eq_of_cover 6 (arrOutV m c) (fun t _ => flushed_eq m c t) cover

/-! ## The small arrays are reshapes of the arguments -/

/-- A `[64, 1]` column flattened to `[64]` reads, at `j`, the column's `(j, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The first weight row the kernel stages is the first weight column of the arguments. -/
theorem row_v1 (c : Dev nD) : row (V m c main_v1) = fun j => m ((c : Thread nD τ).loc main_arg1) (ix2 j (0 : Fin 1)) := by
  have e : (V m c main_v1 : S1x64.Idx → EReal)
      = shapeCast S1x64 (shapeCast S64 (m ((c : Thread nD τ).loc main_arg1)) shapeCasts_S64x1_S64) shapeCasts_S64_S1x64 := by
    dsimp only [Gen.V, Gen.hostOps0]; after_results; rfl
  funext j
  show (V m c main_v1 : S1x64.Idx → EReal) (ix2 (0 : Fin 1) j) = _
  rw [e, shapeCast_a_1a_apply, shapeCast_a1_a_apply]

/-- The second weight row is the second weight column. -/
theorem row_v4 (c : Dev nD) : row (V m c main_v4) = fun j => m ((c : Thread nD τ).loc main_arg3) (ix2 j (0 : Fin 1)) := by
  have e : (V m c main_v4 : S1x64.Idx → EReal)
      = shapeCast S1x64 (shapeCast S64 (m ((c : Thread nD τ).loc main_arg3)) shapeCasts_S64x1_S64) shapeCasts_S64_S1x64 := by
    dsimp only [Gen.V, Gen.hostOps0]; after_results; rfl
  funext j
  show (V m c main_v4 : S1x64.Idx → EReal) (ix2 (0 : Fin 1) j) = _
  rw [e, shapeCast_a_1a_apply, shapeCast_a1_a_apply]

/-- The first bias row is the first bias vector. -/
theorem row_v2 (c : Dev nD) : row (V m c main_v2) = fun j => m ((c : Thread nD τ).loc main_arg2) (ix1 j) := by
  have e : (V m c main_v2 : S1x64.Idx → EReal) = shapeCast S1x64 (m ((c : Thread nD τ).loc main_arg2)) shapeCasts_S64_S1x64 := by
    dsimp only [Gen.V, Gen.hostOps0]; after_results; rfl
  funext j
  show (V m c main_v2 : S1x64.Idx → EReal) (ix2 (0 : Fin 1) j) = _
  rw [e, shapeCast_a_1a_apply]

/-- The second bias row is the second bias vector. -/
theorem row_v5 (c : Dev nD) : row (V m c main_v5) = fun j => m ((c : Thread nD τ).loc main_arg4) (ix1 j) := by
  have e : (V m c main_v5 : S1x64.Idx → EReal) = shapeCast S1x64 (m ((c : Thread nD τ).loc main_arg4)) shapeCasts_S64_S1x64 := by
    dsimp only [Gen.V, Gen.hostOps0]; after_results; rfl
  funext j
  show (V m c main_v5 : S1x64.Idx → EReal) (ix2 (0 : Fin 1) j) = _
  rw [e, shapeCast_a_1a_apply]

/-- The `[1, 1]` block is the scalar argument. -/
theorem alpha_v6 (c : Dev nD) : (V m c main_v6 : S1x1.Idx → EReal) (ix2 (0 : Fin 1) (0 : Fin 1)) = m ((c : Thread nD τ).loc main_arg7) ix0 := by
  have e : (V m c main_v6 : S1x1.Idx → EReal) = shapeCast S1x1 (m ((c : Thread nD τ).loc main_arg7)) shapeCasts_S_S1x1 := by
    dsimp only [Gen.V, Gen.hostOps0]; after_results; rfl
  rw [e]
  refine shapeCast_apply _ shapeCasts_S_S1x1 _ ix0 ?_
  rw [Shape.rowMajor_val_two]
  exact Shape.rowMajorPi_zero _ _

/-! ## The run, read -/

/-- The kernel's result array as a function of the ARGUMENT arrays: at `(b, c, t)` the specification's formula at batch
    entry `b` of the signal, the two weight columns, the two bias vectors and the scalar. -/
def result (x0 : S32x64x30000.Idx → EReal) (x1 : S64x1.Idx → EReal) (x2 : S64.Idx → EReal) (x3 : S64x1.Idx → EReal)
    (x4 : S64.Idx → EReal) (x7 : S_.Idx → EReal) : S32x64x30000.Idx → EReal := fun i =>
  Spec.out (fun c t => x0 (ix3 (⟨(i 0).val, (i 0).isLt⟩ : Fin 32) c t)) (fun j => x1 (ix2 j (0 : Fin 1))) (fun j => x2 (ix1 j))
    (fun j => x3 (ix2 j (0 : Fin 1))) (fun j => x4 (ix1 j)) (x7 ix0) ⟨(i 1).val, (i 1).isLt⟩ ⟨(i 2).val, (i 2).isLt⟩

/-- The array function of the arrays as the region finds them is `result` of the arguments. -/
theorem arrOutV_eq (c : Dev nD) :
    arrOutV m c = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg7)) := by
  funext i
  unfold arrOutV arrOut result
  rw [row_v1, row_v2, row_v4, row_v5, alpha_v6, V_main_arg0]

/-- The frame run re-posted: the result array at `result` of the arguments, the arguments unchanged. -/
theorem run : θ_run defs (onTc (τ := τ) (main (F := Ideal))) ⟨m, fun _ => 0, ρ⟩ fun r => ∀ c : Dev nD,
      r.2.mem ((c : Thread nD τ).loc main_v7) = result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1.trans (final m c)).trans (arrOutV_eq m c), (h c).2⟩) (run_blocks m ρ)

end Cert.KernelValue

end
-- ==== Proof.RefRead.lean ====
/-
  The reference's result, read at batch entry `b`, channel `c` and time `t`, is the specification's formula at the
  slices of the arguments that belong to batch entry `b`.

  The reference works on whole `[32, 64, ·]` arrays; each lemma below reads one intermediate array at an index and
  finds the corresponding quantity of the specification: the mean over time (a host sum from zero, divided by 30000),
  the two projected vectors, the logits (an inner product divided by 64 ^ (1/2), which is 8), the row maximum, the
  softmax weights (whose normaliser the host sums from zero) and the mix.
-/
import proofs.«154775_j89154931131039_2_alg».proof.Proof.Gen.ReferenceIdeal.Read
import proofs.«154775_j89154931131039_2_alg».proof.Proof.LibRowReduce
import proofs.«154775_j89154931131039_2_alg».proof.Proof.Spec
import proofs.«154775_j89154931131039_2_alg».proof.Proof.Consts
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal Cert.ReferenceIdeal.Read
open Cert.ReferenceIdeal.Facts₀

variable (x0 : (⟨S32x64x30000, .f32⟩ : BufTy).Contents (Elt Ideal))
  (x1 : (⟨S64x1, .f32⟩ : BufTy).Contents (Elt Ideal)) (x2 : (⟨S64, .f32⟩ : BufTy).Contents (Elt Ideal))
  (x3 : (⟨S64x1, .f32⟩ : BufTy).Contents (Elt Ideal)) (x4 : (⟨S64, .f32⟩ : BufTy).Contents (Elt Ideal))
  (x7 : (⟨S_, .f32⟩ : BufTy).Contents (Elt Ideal))

/-- Batch entry `b` of the signal: channel `c`, time `t`. -/
def sig (b : Fin 32) : Fin 64 → Fin 30000 → EReal := fun c t => x0 (ix3 b c t)

/-- A `[64, 1]` weight column as a vector. -/
def col (w : (⟨S64x1, .f32⟩ : BufTy).Contents (Elt Ideal)) : Fin 64 → EReal := fun j => w (ix2 j (0 : Fin 1))

/-- A `[64]` bias as a vector. -/
def vec (v : (⟨S64, .f32⟩ : BufTy).Contents (Elt Ideal)) : Fin 64 → EReal := fun j => v (ix1 j)

/-- The mean over time of channel `c` of batch entry `b`. -/
theorem mean_read (b : Fin 32) (c : Fin 64) :
    val_main_v4 (F := Ideal) x0 (ix3 b c (0 : Fin 1)) = Spec.mean (sig x0 b c) := by
  rw [val_main_v4_apply, val_main_v2_apply, val_main_v3_apply, val_main_cst_2_apply, val_main_v1_apply,
    val_main_cst_1_apply]
  simp only [Ideal.hostDivf_def, Ideal.ofBits_def]
  rw [Cert.Consts.div_30000, Ideal.ofBits_zero_f32, zero_add]
  have hs : ∑ k : Fin 30000, x0 (idx_main_v1 (idx_main_v2 (ix3 b c (0 : Fin 1))) k) = ∑ t : Fin 30000, x0 (ix3 b c t) := by
    refine Finset.sum_congr rfl fun k _ => ?_
    exact congrArg x0 (funext fun a => by match a with | ⟨0, _⟩ => rfl | ⟨1, _⟩ => rfl | ⟨2, _⟩ => rfl)
  rw [hs]
  rfl

/-- The first projected vector of channel `c`. -/
theorem q_read (b : Fin 32) (c j : Fin 64) :
    val_main_v12 (F := Ideal) x0 x1 x2 (ix3 b c j) = Spec.proj (Spec.mean (sig x0 b c)) (col x1) (vec x2) j := by
  have e7 : idx_main_v7 (ix3 b c j) = ix3 b c (0 : Fin 1) :=
    funext fun a => by match a with | ⟨0, _⟩ => rfl | ⟨1, _⟩ => rfl | ⟨2, _⟩ => rfl
  have e5 : idx_main_v5 (idx_main_v6 (idx_main_v8 (ix3 b c j))) = ix2 j (0 : Fin 1) :=
    funext fun a => Fin.ext (by match a with | ⟨0, _⟩ => exact Nat.div_one _ | ⟨1, _⟩ => rfl)
  have e10 : idx_main_v10 (idx_main_v11 (ix3 b c j)) = ix1 j :=
    funext fun a => by match a with | ⟨0, _⟩ => rfl
  rw [val_main_v12_apply, val_main_v9_apply, val_main_v7_apply, val_main_v8_apply, val_main_v6_apply, val_main_v5_apply,
    val_main_v11_apply, val_main_v10_apply, e7, e5, e10, mean_read]
  rfl

/-- The second projected vector of channel `e`. -/
theorem k_read (b : Fin 32) (e j : Fin 64) :
    val_main_v20 (F := Ideal) x0 x3 x4 (ix3 b e j) = Spec.proj (Spec.mean (sig x0 b e)) (col x3) (vec x4) j := by
  have e15 : idx_main_v15 (ix3 b e j) = ix3 b e (0 : Fin 1) :=
    funext fun a => by match a with | ⟨0, _⟩ => rfl | ⟨1, _⟩ => rfl | ⟨2, _⟩ => rfl
  have e13 : idx_main_v13 (idx_main_v14 (idx_main_v16 (ix3 b e j))) = ix2 j (0 : Fin 1) :=
    funext fun a => Fin.ext (by match a with | ⟨0, _⟩ => exact Nat.div_one _ | ⟨1, _⟩ => rfl)
  have e18 : idx_main_v18 (idx_main_v19 (ix3 b e j)) = ix1 j :=
    funext fun a => by match a with | ⟨0, _⟩ => rfl
  rw [val_main_v20_apply, val_main_v17_apply, val_main_v15_apply, val_main_v16_apply, val_main_v14_apply,
    val_main_v13_apply, val_main_v19_apply, val_main_v18_apply, e15, e13, e18, mean_read]
  rfl

/-- The logit of channels `c` and `e`: the reference divides the inner product by 64 ^ (1/2) = 8. -/
theorem logit_read (b : Fin 32) (c e : Fin 64) :
    val_main_v23 (F := Ideal) x0 x1 x2 x3 x4 (ix3 b c e)
      = Spec.logits (sig x0 b) (col x1) (vec x2) (col x3) (vec x4) c e := by
  rw [val_main_v23_apply, val_main_v21_apply, val_main_v22_apply, val_main_v0_apply, val_main_cst_apply,
    val_main_cst_0_apply]
  simp only [Ideal.hostDivf_def, Ideal.hostPowf_def, Ideal.ofBits_def]
  rw [Cert.Consts.div_scale]
  unfold Spec.logits Spec.logit
  refine congrArg (· * _) (Finset.sum_congr rfl fun k _ => ?_)
  have el : lidx_main_v21 (ix3 b c e) k = ix3 b c k :=
    funext fun a => by match a with | ⟨0, _⟩ => rfl | ⟨1, _⟩ => rfl | ⟨2, _⟩ => rfl
  have er : ridx_main_v21 (ix3 b c e) k = ix3 b e k :=
    funext fun a => by match a with | ⟨0, _⟩ => rfl | ⟨1, _⟩ => rfl | ⟨2, _⟩ => rfl
  rw [el, er, q_read, k_read]

/-- The maximum of the row of logits of channel `c`. -/
theorem max_read (b : Fin 32) (c : Fin 64) :
    val_main_v26 (F := Ideal) x0 x1 x2 x3 x4 (ix2 b c)
      = Spec.rowMax (Spec.logits (sig x0 b) (col x1) (vec x2) (col x3) (vec x4) c) := by
  rw [val_main_v26_apply, val_main_v25_apply, val_main_cst_4_apply]
  unfold val_main_v24
  rw [Cert.RowReduce.hostReduce_maximumf_last3 _ _ reducesTo_S32x64x64_S32x64_d2 (by decide) h_S_ b c, val_main_cst_3_apply]
  simp only [Ideal.maximumf_def, Ideal.ofBits_def]
  unfold Spec.rowMax
  refine congrArg (max _) ?_
  exact congrArg (Finset.fold max _ · Finset.univ) (funext fun k => logit_read x0 x1 x2 x3 x4 b c k)

/-- The exponential of a logit less its row's maximum. -/
theorem exp_read (b : Fin 32) (c e : Fin 64) :
    val_main_v30 (F := Ideal) x0 x1 x2 x3 x4 (ix3 b c e)
      = Ideal.exp (Spec.logits (sig x0 b) (col x1) (vec x2) (col x3) (vec x4) c e
          - Spec.rowMax (Spec.logits (sig x0 b) (col x1) (vec x2) (col x3) (vec x4) c)) := by
  have e28 : idx_main_v27 (idx_main_v28 (ix3 b c e)) = ix2 b c :=
    funext fun a => by match a with | ⟨0, _⟩ => rfl | ⟨1, _⟩ => rfl
  rw [val_main_v30_apply, val_main_v29_apply, val_main_v28_apply, val_main_v27_apply, e28, max_read, logit_read]
  simp only [Ideal.hostUnary_exp_def, Ideal.subf_def]

/-- The softmax weight of channel `e` in the row of channel `c`. -/
theorem weight_read (b : Fin 32) (c e : Fin 64) :
    val_main_v34 (F := Ideal) x0 x1 x2 x3 x4 (ix3 b c e)
      = Spec.weight (Spec.logits (sig x0 b) (col x1) (vec x2) (col x3) (vec x4) c) e := by
  have e33 : idx_main_v32 (idx_main_v33 (ix3 b c e)) = ix2 b c :=
    funext fun a => by match a with | ⟨0, _⟩ => rfl | ⟨1, _⟩ => rfl
  rw [val_main_v34_apply, val_main_v33_apply, val_main_v32_apply, e33, val_main_v31_apply, val_main_cst_5_apply, exp_read]
  simp only [Ideal.hostDivf_def, Ideal.ofBits_def]
  rw [Ideal.ofBits_zero_f32, zero_add]
  unfold Spec.weight
  refine congrArg (Ideal.div _) (Finset.sum_congr rfl fun k _ => ?_)
  have e31 : idx_main_v31 (ix2 b c) k = ix3 b c k :=
    funext fun a => by match a with | ⟨0, _⟩ => rfl | ⟨1, _⟩ => rfl | ⟨2, _⟩ => rfl
  rw [e31, exp_read]

/-- THE REFERENCE'S RESULT at `(b, c, t)` is the specification's formula at batch entry `b`. -/
theorem result_read (b : Fin 32) (c : Fin 64) (t : Fin 30000) :
    val_main_v38 (F := Ideal) x0 x1 x2 x3 x4 x7 (ix3 b c t)
      = Spec.out (sig x0 b) (col x1) (vec x2) (col x3) (vec x4) (x7 ix0) c t := by
  rw [val_main_v38_apply, val_main_v37_apply, val_main_v36_apply, val_main_v35_apply]
  simp only [Ideal.addf_def, Ideal.mulf_def]
  unfold Spec.out
  have e36 : idx_main_v36 (ix3 b c t) = ix0 := funext fun a => a.elim0
  rw [e36]
  refine congrArg (x0 (ix3 b c t) + x7 ix0 * ·) (Finset.sum_congr rfl fun k _ => ?_)
  have el : lidx_main_v35 (ix3 b c t) k = ix3 b c k :=
    funext fun a => by match a with | ⟨0, _⟩ => rfl | ⟨1, _⟩ => rfl | ⟨2, _⟩ => rfl
  have er : ridx_main_v35 (ix3 b c t) k = ix3 b k t :=
    funext fun a => by match a with | ⟨0, _⟩ => rfl | ⟨1, _⟩ => rfl | ⟨2, _⟩ => rfl
  rw [el, er, weight_read]
  rfl

end Cert.RefValue

end
-- ==== Proof.lean ====
/-
  The certificate of a channel-to-channel attention kernel against its jnp reference, over the extended reals.

  For one batch entry the signal is 64 channels by 30000 time steps. Each channel is summarised by its mean over time;
  from the mean two 64-vectors are made by a weight vector and a bias; the logit of a pair of channels is the inner
  product of the first vector of one with the second vector of the other, scaled by 1/sqrt 64; a softmax over each row
  of logits gives weights, and the result is the signal plus `α` times the weighted mix of the channels.

  The kernel works one batch entry per grid point and sweeps time in fifteen stretches (fourteen of 2048 steps and one
  of 1328), first to sum the channels, then to store the result; the reference works on whole arrays. They differ in
  three ways, none of which needs the inputs to be finite:
    * the kernel's mean is the sum of fifteen partial sums times the constant 1/30000, the reference's is one sum
      divided by 30000 — a regrouping of a finite sum, and division by a non-zero real as a product with its inverse;
    * the kernel scales the logits by the word of 1/8, the reference divides by 64 ^ (1/2), which is 8;
    * the reference starts its sums from an explicit zero.
  Proof/Spec.lean states the common formula and the regrouping; Proof/RefRead.lean reads the reference's result at an
  index; Proof/KernelOps.lean, Proof/KernelBlock.lean and Proof/KernelArray.lean read the kernel's: the body's values at
  an index, the output block as one function of the input blocks, the result array as one function of the arguments.
  The ideal pass's one rewrite names the kernel's constant 1/30000; its statement is `preserves`.
-/
import proofs.«154775_j89154931131039_2_alg».proof.Defs
import proofs.«154775_j89154931131039_2_alg».proof.Proof.Gen.Kernel
import proofs.«154775_j89154931131039_2_alg».proof.Proof.Gen.KernelIdeal
import proofs.«154775_j89154931131039_2_alg».proof.Proof.Gen.ReferenceIdeal
import proofs.«154775_j89154931131039_2_alg».proof.Proof.Gen.Pre_finite_inputs
import proofs.«154775_j89154931131039_2_alg».proof.Proof.Gen.ReferenceIdeal.Run
import proofs.«154775_j89154931131039_2_alg».proof.Proof.Gen.ReferenceIdeal.Read
import proofs.«154775_j89154931131039_2_alg».proof.Proof.FrameBitsP
import proofs.«154775_j89154931131039_2_alg».proof.Proof.KernelArray
import proofs.«154775_j89154931131039_2_alg».proof.Proof.RefRead
import Idealize.ShloMosaic.Adequacy
import Idealize.ShloMosaic.Init

noncomputable section

namespace Cert.Proof

open Idealize.ShloMosaic Idealize.ShloMosaic.ValueIdx Idealize.SL.Sem

/-- The kernel runs and leaves its arguments unchanged (the word-level program). -/
theorem frame_k : Cert.frame_Kernel := fun m ρ _ => Cert.Kernel.GenP.frame m ρ

/-- The idealized kernel runs and leaves its arguments unchanged. -/
theorem frame_ki : Cert.frame_KernelIdeal := fun m ρ _ => Cert.KernelIdeal.GenP.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the kernel's constant `3.3333334e-5` is named `1/30000`, its value in the table. -/
theorem preserves : Cert.preserves_Kernel_KernelIdeal :=
  IdealRules.named_const.statement Cert.KernelIdeal.κ "inv_30000" .f32 0x380BCF65#32 ((1 / 30000 : ℝ) : EReal) rfl

/-- The reference's result array is the kernel's result array, as functions of the arguments: at `(b, c, t)` both are
    the common formula at batch entry `b`. -/
theorem bridge (x0 : (⟨Cert.ReferenceIdeal.S32x64x30000, .f32⟩ : BufTy).Contents (Elt Ideal))
    (x1 : (⟨Cert.ReferenceIdeal.S64x1, .f32⟩ : BufTy).Contents (Elt Ideal)) (x2 : (⟨Cert.ReferenceIdeal.S64, .f32⟩ : BufTy).Contents (Elt Ideal))
    (x3 : (⟨Cert.ReferenceIdeal.S64x1, .f32⟩ : BufTy).Contents (Elt Ideal)) (x4 : (⟨Cert.ReferenceIdeal.S64, .f32⟩ : BufTy).Contents (Elt Ideal))
    (x7 : (⟨Cert.ReferenceIdeal.S_, .f32⟩ : BufTy).Contents (Elt Ideal)) :
    Cert.ReferenceIdeal.Read.val_main_v38 (F := Ideal) x0 x1 x2 x3 x4 x7 = Cert.KernelValue.result x0 x1 x2 x3 x4 x7 := by
  funext i
  obtain ⟨b, c, t, rfl⟩ : ∃ (b : Fin 32) (c : Fin 64) (t : Fin 30000), i = ix3 b c t := ⟨i 0, i 1, i 2, eq_ix3 i⟩
  exact Cert.RefValue.result_read x0 x1 x2 x3 x4 x7 b c t

/-- From memories that agree on the arguments both programs end, with the same result array. -/
theorem algebraic : Cert.algebraic_KernelIdeal_ReferenceIdeal := by
  intro m ρ m' ρ' _ hagree
  refine ⟨fun c => Cert.KernelValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg7)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, -, -, a7⟩ := hagree c
  rw [Cert.ReferenceIdeal.Read.val_main_v38_eq, a0, a1, a2, a3, a4, a7]
  exact bridge _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
